-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x3200000 : Shape := ⟨2, ![2, 3200000]⟩
abbrev S92x64 : Shape := ⟨2, ![92, 64]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S92x64 : S_.BroadcastsInDim S92x64 (![] : Fin 0 → Fin S92x64.rank)
  reducesTo_S92x64_S_d0_1 : S92x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg10 : FVec F S16x1 .f32) (main_arg11 : FVec F S1 .f32) (main_v33 : IVec S_ 1) : IVec S_ 1 :=
  let main_v34 : FVec F S16x1 .f32 := Host.absf main_arg10
  let main_cst_12 : FVec F S_ .f32 := constant S_ .f32 0x7F800000#32
  let main_v35 : FVec F S16x1 .f32 := broadcastInDim S16x1 ![] bcast_S_S16x1 main_cst_12
  let main_v36 : IVec S16x1 1 := cmpf .olt main_v34 main_v35
  let main_c_13 : IVec S_ 1 := constantI S_ 1 1#1
  let main_v37 : IVec S_ 1 := (fun x v => Host.reduce IntOp.andi x v reducesTo_S16x1_S_d0_1 h_S_) main_v36 main_c_13
  let main_v38 : IVec S_ 1 := andi main_v33 main_v37
  let main_v39 : FVec F S1 .f32 := Host.absf main_arg11
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg7 : FVec F S32 .f32) (main_arg8 : FVec F S32x16 .f32) (main_arg9 : FVec F S16 .f32) (main_arg10 : FVec F S16x1 .f32) (main_arg11 : FVec F S1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg7
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x16 .f32 := Host.absf main_arg8
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg9
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg10 main_arg11 main_v33

def fn {F : FTy → Type} [FloatOps F] (main_arg0 : IVec S100000 32) (main_arg1 : IVec S2x3200000 32) (main_arg2 : IVec S100000 32) (main_arg3 : FVec F S92x64 .f32) (main_arg4 : FVec F S3x64x64 .f32) (main_arg5 : FVec F S3x64 .f32) (main_arg6 : FVec F S64x32 .f32) (main_arg7 : FVec F S32 .f32) (main_arg8 : FVec F S32x16 .f32) (main_arg9 : FVec F S16 .f32) (main_arg10 : FVec F S16x1 .f32) (main_arg11 : FVec F S1 .f32) : IVec S_ 1 :=
  let main_v0 : FVec F S92x64 .f32 := Host.absf main_arg3
  let main_cst : FVec F S_ .f32 := constant S_ .f32 0x7F800000#32
  let main_v1 : FVec F S92x64 .f32 := broadcastInDim S92x64 ![] bcast_S_S92x64 main_cst
  let main_v2 : IVec S92x64 1 := cmpf .olt main_v0 main_v1
  let main_c : IVec S_ 1 := constantI S_ 1 1#1
  let main_v3 : IVec S_ 1 := (fun x v => Host.reduce IntOp.andi x v reducesTo_S92x64_S_d0_1 h_S_) main_v2 main_c
  let main_v4 : FVec F S3x64x64 .f32 := Host.absf main_arg4
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg5
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S64x32 .f32 := Host.absf main_arg6
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg7 main_arg8 main_arg9 main_arg10 main_arg11 main_v13 main_v16
-- ==== Kernel.lean ====
abbrev S100000 : Shape := ⟨1, ![100000]⟩
abbrev S2x3200000 : Shape := ⟨2, ![2, 3200000]⟩
abbrev S92x64 : Shape := ⟨2, ![92, 64]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x64 : Shape := ⟨2, ![100000, 64]⟩
abbrev S1x64x64 : Shape := ⟨3, ![1, 64, 64]⟩
abbrev S64x64 : Shape := ⟨2, ![64, 64]⟩
abbrev S10000x64 : Shape := ⟨2, ![10000, 64]⟩
abbrev S3300000x64 : Shape := ⟨2, ![3300000, 64]⟩
abbrev S1x64 : Shape := ⟨2, ![1, 64]⟩
abbrev S64 : Shape := ⟨1, ![64]⟩
abbrev S2048x64 : Shape := ⟨2, ![2048, 64]⟩
abbrev S2048 : Shape := ⟨1, ![2048]⟩
abbrev S2048x1 : Shape := ⟨2, ![2048, 1]⟩
abbrev S2048x32 : Shape := ⟨2, ![2048, 32]⟩
abbrev S1x32 : Shape := ⟨2, ![1, 32]⟩
abbrev S2048x16 : Shape := ⟨2, ![2048, 16]⟩
abbrev S1x16 : Shape := ⟨2, ![1, 16]⟩
abbrev S1x1 : Shape := ⟨2, ![1, 1]⟩

abbrev nBuf : Space → Nat
  | .hbm => 146
  | .vmem => 43
  | .smem => 0
  | _ => 0

abbrev hbmTy0_0 (i : Nat) : BufTy := match i % 128 with
  | 0 => ⟨S100000, .i32⟩
  | 1 => ⟨S2x3200000, .i32⟩
  | 2 => ⟨S100000, .i32⟩
  | 3 => ⟨S92x64, .f32⟩
  | 4 => ⟨S3x64x64, .f32⟩
  | 5 => ⟨S3x64, .f32⟩
  | 6 => ⟨S64x32, .f32⟩
  | 7 => ⟨S32, .f32⟩
  | 8 => ⟨S32x16, .f32⟩
  | 9 => ⟨S16, .f32⟩
  | 10 => ⟨S16x1, .f32⟩
  | 11 => ⟨S1, .f32⟩
  | 12 => ⟨S100000, .i32⟩
  | 13 => ⟨S1x3200000, .i32⟩
  | 14 => ⟨S3200000, .i32⟩
  | 15 => ⟨S3300000, .i32⟩
  | 16 => ⟨S1x3200000, .i32⟩
  | 17 => ⟨S3200000, .i32⟩
  | 18 => ⟨S3300000, .i32⟩
  | 19 => ⟨S_, .f32⟩
  | 20 => ⟨S100000, .f32⟩
  | 21 => ⟨S_, .i32⟩
  | 22 => ⟨S3300000, .i32⟩
  | 23 => ⟨S3300000, .i1⟩
  | 24 => ⟨S_, .i32⟩
  | 25 => ⟨S3300000, .i32⟩
  | 26 => ⟨S3300000, .i32⟩
  | 27 => ⟨S3300000, .i32⟩
  | 28 => ⟨S3300000x1, .i32⟩
  | 29 => ⟨S_, .f32⟩
  | 30 => ⟨S3300000, .f32⟩
  | 31 => ⟨S100000, .f32⟩
  | 32 => ⟨S_, .f32⟩
  | 33 => ⟨S100000, .f32⟩
  | 34 => ⟨S100000, .i1⟩
  | 35 => ⟨S100000, .f32⟩
  | 36 => ⟨S_, .f32⟩
  | 37 => ⟨S_, .f32⟩
  | 38 => ⟨S100000, .f32⟩
  | 39 => ⟨S100000, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000, .f32⟩
  | 58 => ⟨S3300000, .f32⟩
  | 59 => ⟨S_, .i32⟩
  | 60 => ⟨S100000, .i32⟩
  | 61 => ⟨S100000, .i1⟩
  | 62 => ⟨S_, .i32⟩
  | 63 => ⟨S100000, .i32⟩
  | 64 => ⟨S100000, .i32⟩
  | 65 => ⟨S100000, .i32⟩
  | 66 => ⟨S100000x1, .i32⟩
  | 67 => ⟨S100000x64, .f32⟩
  | 68 => ⟨S1x64x64, .f32⟩
  | 69 => ⟨S64x64, .f32⟩
  | 70 => ⟨S100000x64, .f32⟩
  | 71 => ⟨S_, .i32⟩
  | 72 => ⟨S3300000, .i32⟩
  | 73 => ⟨S3300000, .i1⟩
  | 74 => ⟨S_, .i32⟩
  | 75 => ⟨S3300000, .i32⟩
  | 76 => ⟨S3300000, .i32⟩
  | 77 => ⟨S3300000, .i32⟩
  | 78 => ⟨S3300000x1, .i32⟩
  | 79 => ⟨S3300000x64, .f32⟩
  | 80 => ⟨S3300000x1, .f32⟩
  | 81 => ⟨S3300000x64, .f32⟩
  | 82 => ⟨S3300000x64, .f32⟩
  | 83 => ⟨S_, .f32⟩
  | 84 => ⟨S100000x64, .f32⟩
  | 85 => ⟨S3300000x1, .i32⟩
  | 86 => ⟨S100000x64, .f32⟩
  | 87 => ⟨S1x64, .f32⟩
  | 88 => ⟨S64, .f32⟩
  | 89 => ⟨S100000x64, .f32⟩
  | 90 => ⟨S1x64x64, .f32⟩
  | 91 => ⟨S64x64, .f32⟩
  | 92 => ⟨S100000x64, .f32⟩
  | 93 => ⟨S_, .i32⟩
  | 94 => ⟨S3300000, .i32⟩
  | 95 => ⟨S3300000, .i1⟩
  | 96 => ⟨S_, .i32⟩
  | 97 => ⟨S3300000, .i32⟩
  | 98 => ⟨S3300000, .i32⟩
  | 99 => ⟨S3300000, .i32⟩
  | 100 => ⟨S3300000x1, .i32⟩
  | 101 => ⟨S3300000x64, .f32⟩
  | 102 => ⟨S3300000x1, .f32⟩
  | 103 => ⟨S3300000x64, .f32⟩
  | 104 => ⟨S3300000x64, .f32⟩
  | 105 => ⟨S_, .f32⟩
  | 106 => ⟨S100000x64, .f32⟩
  | 107 => ⟨S3300000x1, .i32⟩
  | 108 => ⟨S100000x64, .f32⟩
  | 109 => ⟨S1x64, .f32⟩
  | 110 => ⟨S64, .f32⟩
  | 111 => ⟨S100000x64, .f32⟩
  | 112 => ⟨S1x64x64, .f32⟩
  | 113 => ⟨S64x64, .f32⟩
  | 114 => ⟨S100000x64, .f32⟩
  | 115 => ⟨S_, .i32⟩
  | 116 => ⟨S3300000, .i32⟩
  | 117 => ⟨S3300000, .i1⟩
  | 118 => ⟨S_, .i32⟩
  | 119 => ⟨S3300000, .i32⟩
  | 120 => ⟨S3300000, .i32⟩
  | 121 => ⟨S3300000, .i32⟩
  | 122 => ⟨S3300000x1, .i32⟩
  | 123 => ⟨S3300000x64, .f32⟩
  | 124 => ⟨S3300000x1, .f32⟩
  | 125 => ⟨S3300000x64, .f32⟩
  | 126 => ⟨S3300000x64, .f32⟩
  | 127 => ⟨S_, .f32⟩
  | _ => ⟨S100000, .i32⟩

abbrev hbmTy0_1 (i : Nat) : BufTy := match i % 128 with
  | 0 => ⟨S100000x64, .f32⟩
  | 1 => ⟨S3300000x1, .i32⟩
  | 2 => ⟨S100000x64, .f32⟩
  | 3 => ⟨S1x64, .f32⟩
  | 4 => ⟨S64, .f32⟩
  | 5 => ⟨S100000x64, .f32⟩
  | 6 => ⟨S_, .f32⟩
  | 7 => ⟨S2048x64, .f32⟩
  | 8 => ⟨S100000x1, .i32⟩
  | 9 => ⟨S2048x64, .f32⟩
  | 10 => ⟨S_, .f32⟩
  | 11 => ⟨S100000, .f32⟩
  | 12 => ⟨S_, .f32⟩
  | 13 => ⟨S2048, .f32⟩
  | 14 => ⟨S100000x1, .i32⟩
  | 15 => ⟨S2048, .f32⟩
  | 16 => ⟨S2048x1, .f32⟩
  | 17 => ⟨S2048x1, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S64x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S2048x64, .f32⟩
  | .local _ .vmem, ⟨35, _⟩ => ⟨S2048x1, .f32⟩
  | .local _ .vmem, ⟨36, _⟩ => ⟨S64x32, .f32⟩
  | .local _ .vmem, ⟨37, _⟩ => ⟨S32, .f32⟩
  | .local _ .vmem, ⟨38, _⟩ => ⟨S32x16, .f32⟩
  | .local _ .vmem, ⟨39, _⟩ => ⟨S16, .f32⟩
  | .local _ .vmem, ⟨40, _⟩ => ⟨S16x1, .f32⟩
  | .local _ .vmem, ⟨41, _⟩ => ⟨S1, .f32⟩
  | .local _ .vmem, ⟨42, _⟩ => ⟨S2048x1, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_c_5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_c_7 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_c_9 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_10 : Ref sig .tc := ⟨.hbm, 71, rfl⟩
abbrev main_v45 : Ref sig .tc := ⟨.hbm, 72, rfl⟩
abbrev main_v46 : Ref sig .tc := ⟨.hbm, 73, rfl⟩
abbrev main_c_11 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_13 : Ref sig .tc := ⟨.hbm, 93, rfl⟩
abbrev main_v64 : Ref sig .tc := ⟨.hbm, 94, rfl⟩
abbrev main_v65 : Ref sig .tc := ⟨.hbm, 95, rfl⟩
abbrev main_c_14 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_15 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_c_16 : Ref sig .tc := ⟨.hbm, 115, rfl⟩
abbrev main_v83 : Ref sig .tc := ⟨.hbm, 116, rfl⟩
abbrev main_v84 : Ref sig .tc := ⟨.hbm, 117, rfl⟩
abbrev main_c_17 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_18 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_19 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_20 : Ref sig .tc := ⟨.hbm, 138, rfl⟩
abbrev main_v102 : Ref sig .tc := ⟨.hbm, 139, rfl⟩
abbrev main_cst_21 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc5_stg3_0 : Ref sig .tc := ⟨.vmem, 32, rfl⟩
abbrev cc5_stg3_1 : Ref sig .tc := ⟨.vmem, 33, rfl⟩
abbrev cc6_stg0_0 : Ref sig .tc := ⟨.vmem, 34, rfl⟩
abbrev cc6_stg1_0 : Ref sig .tc := ⟨.vmem, 35, rfl⟩
abbrev cc6_stg2_0 : Ref sig .tc := ⟨.vmem, 36, rfl⟩
abbrev cc6_stg3_0 : Ref sig .tc := ⟨.vmem, 37, rfl⟩
abbrev cc6_stg4_0 : Ref sig .tc := ⟨.vmem, 38, rfl⟩
abbrev cc6_stg5_0 : Ref sig .tc := ⟨.vmem, 39, rfl⟩
abbrev cc6_stg6_0 : Ref sig .tc := ⟨.vmem, 40, rfl⟩
abbrev cc6_stg7_0 : Ref sig .tc := ⟨.vmem, 41, rfl⟩
abbrev cc6_stg8_0 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc5_sem3_0 : DmaSem sig := 32
abbrev cc5_sem3_1 : DmaSem sig := 33
abbrev cc6_sem0_0 : DmaSem sig := 34
abbrev cc6_sem1_0 : DmaSem sig := 35
abbrev cc6_sem2_0 : DmaSem sig := 36
abbrev cc6_sem3_0 : DmaSem sig := 37
abbrev cc6_sem4_0 : DmaSem sig := 38
abbrev cc6_sem5_0 : DmaSem sig := 39
abbrev cc6_sem6_0 : DmaSem sig := 40
abbrev cc6_sem7_0 : DmaSem sig := 41
abbrev cc6_sem8_0 : DmaSem sig := 42

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S10000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S2048x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S2048x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S64x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S32 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S32x16 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S16 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S16x1 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S2048x1 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S_S3300000 : S_.BroadcastsInDim S3300000 (![] : Fin 0 → Fin S3300000.rank)
  bcast_S3300000_S3300000x1_0 : S3300000.BroadcastsInDim S3300000x1 (![0] : Fin 1 → Fin S3300000x1.rank)
  bcast_S100000_S100000x1_0 : S100000.BroadcastsInDim S100000x1 (![0] : Fin 1 → Fin S100000x1.rank)
  slices_S3x64x64_S1x64x64_0_0_0 : S3x64x64.Slices ![0, 0, 0] S1x64x64
  shapeCasts_S1x64x64_S64x64 : S1x64x64.ShapeCasts S64x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  slices_S3x64_S1x64_0_0 : S3x64.Slices ![0, 0] S1x64
  shapeCasts_S1x64_S64 : S1x64.ShapeCasts S64
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S10000x64 : S1x64.Broadcasts S10000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S2048x64 : S_.BroadcastsInDim S2048x64 (![] : Fin 0 → Fin S2048x64.rank)
  bcast_S_S2048 : S_.BroadcastsInDim S2048 (![] : Fin 0 → Fin S2048.rank)
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  broadcasts_S2048x1_S2048x64 : S2048x1.Broadcasts S2048x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S2048x32 : S1x32.Broadcasts S2048x32
  inb_S32x16_S32x16_0_0 : ∀ a, (![0, 0] : Fin 2 → Nat) a + S32x16.size a ≤ S32x16.size a
  h_S32x16 : 0 < S32x16.numel
  inb_S16_S16_0 : ∀ a, (![0] : Fin 1 → Nat) a + S16.size a ≤ S16.size a
  h_S16 : 0 < S16.numel
  shapeCasts_S16_S1x16 : S16.ShapeCasts S1x16
  broadcasts_S1x16_S2048x16 : S1x16.Broadcasts S2048x16
  inb_S16x1_S16x1_0_0 : ∀ a, (![0, 0] : Fin 2 → Nat) a + S16x1.size a ≤ S16x1.size a
  h_S16x1 : 0 < S16x1.numel
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S92x64_S100000x1_S100000x64_1_0_n_n_0_1_164_wf : GatherDims.WF S92x64 S100000x1 S100000x64 [1] [0] [] [0] [] 1 ![1, 64]
  dot_S10000x64_S64x64_S10000x64_1_0_0_1_n_n_wf : DotDims.WF S10000x64 S64x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  scatter_S2048x64_S100000x1_S100000x64_1_0_0_1_wf : ScatterDims.WF S2048x64 S100000x1 S100000x64 [1] [0] [0] 1
  scatter_S2048_S100000x1_S100000_n_0_0_1_wf : ScatterDims.WF S2048 S100000x1 S100000 [] [0] [0] 1
  dot_S2048x64_S64x32_S2048x32_1_0_0_1_n_n_wf : DotDims.WF S2048x64 S64x32 S2048x32 [1] [0] [0] [1] [] []
  dot_S2048x32_S32x16_S2048x16_1_0_0_1_n_n_wf : DotDims.WF S2048x32 S32x16 S2048x16 [1] [0] [0] [1] [] []
  dot_S2048x16_S16x1_S2048x1_1_0_0_1_n_n_wf : DotDims.WF S2048x16 S16x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64.size a ≤ S64.size a
  hwx5_1 : ∀ i : grid5.Coords, EltTy.bits .f32 = 32 ∨ (Rect.block (s := S64) S64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x64.size a ≤ S100000x64.size a
  hwx5_3 : ∀ i : grid5.Coords, EltTy.bits .f32 = 32 ∨ (Rect.block (s := S100000x64) S10000x64.size (cc5_transform_3 i) (hinb5_3 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S2048x64.size a ≤ S2048x64.size a
  hwx6_0 : ∀ i : grid6.Coords, EltTy.bits .f32 = 32 ∨ (Rect.block (s := S2048x64) S2048x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S2048x1.size a ≤ S2048x1.size a
  hwx6_1 : ∀ i : grid6.Coords, EltTy.bits .f32 = 32 ∨ (Rect.block (s := S2048x1) S2048x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x32.size a ≤ S64x32.size a
  hwx6_2 : ∀ i : grid6.Coords, EltTy.bits .f32 = 32 ∨ (Rect.block (s := S64x32) S64x32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S32.size a ≤ S32.size a
  hwx6_3 : ∀ i : grid6.Coords, EltTy.bits .f32 = 32 ∨ (Rect.block (s := S32) S32.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S32x16.size a ≤ S32x16.size a
  hwx6_4 : ∀ i : grid6.Coords, EltTy.bits .f32 = 32 ∨ (Rect.block (s := S32x16) S32x16.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S16.size a ≤ S16.size a
  hwx6_5 : ∀ i : grid6.Coords, EltTy.bits .f32 = 32 ∨ (Rect.block (s := S16) S16.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S16x1.size a ≤ S16x1.size a
  hwx6_6 : ∀ i : grid6.Coords, EltTy.bits .f32 = 32 ∨ (Rect.block (s := S16x1) S16x1.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1.size a ≤ S1.size a
  hwx6_7 : ∀ i : grid6.Coords, EltTy.bits .f32 = 32 ∨ (Rect.block (s := S1) S1.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S2048x1.size a ≤ S2048x1.size a
  hwx6_8 : ∀ i : grid6.Coords, EltTy.bits .f32 = 32 ∨ (Rect.block (s := S2048x1) S2048x1.size (cc6_transform_8 i) (hinb6_8 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S92x64_S100000x1_S100000x64_1_0_n_n_0_1_164 : GatherDims S92x64 S100000x1 S100000x64 where
  offsetDims := [1]
  collapsedSliceDims := [0]
  operandBatchingDims := []
  startIndicesBatchingDims := []
  startIndexMap := [0]
  indexVectorDim := 1
  sliceSizes := ![1, 64]
  wf := gather_S92x64_S100000x1_S100000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def scatter_S2048x64_S100000x1_S100000x64_1_0_0_1 : ScatterDims S2048x64 S100000x1 S100000x64 where
  updateWindowDims := [1]
  insertedWindowDims := [0]
  scatterDimsToOperandDims := [0]
  indexVectorDim := 1
  wf := scatter_S2048x64_S100000x1_S100000x64_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S2048x32_S32x16_S2048x16_1_0_0_1_n_n : DotDims S2048x32 S32x16 S2048x16 where
  lhsContracting := [1]
  rhsContracting := [0]
  lhsNonContracting := [0]
  rhsNonContracting := [1]
  lhsBatch := []
  rhsBatch := []
  wf := dot_S2048x32_S32x16_S2048x16_1_0_0_1_n_n_wf
def dot_S2048x16_S16x1_S2048x1_1_0_0_1_n_n : DotDims S2048x16 S16x1 S2048x1 where
  lhsContracting := [1]
  rhsContracting := [0]
  lhsNonContracting := [0]
  rhsNonContracting := [1]
  lhsBatch := []
  rhsBatch := []
  wf := dot_S2048x16_S16x1_S2048x1_1_0_0_1_n_n_wf

abbrev win0_0 : Pipeline.Window sig grid0 :=
  Pipeline.Window.ofSpec (Memref.whole main_v41) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v44) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v57) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v59) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v60) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v60) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v63) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v76) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v78) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S10000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v79) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v79) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v81) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v82) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v95) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v97) S64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S10000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v98) S10000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v101) S2048x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v106) S2048x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg6) S64x32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg7) S32.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg8) S32x16.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg9) S16.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_arg10) S16x1.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_arg11) S1.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v107) S2048x1.size cc6_transform_8 reads6_8 true true 1 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

class Facts : Prop extends Facts₀ where

variable [Facts]
-- ==== ReferenceIdeal.lean ====
abbrev S100000 : Shape := ⟨1, ![100000]⟩
abbrev S2x3200000 : Shape := ⟨2, ![2, 3200000]⟩
abbrev S92x64 : Shape := ⟨2, ![92, 64]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x64 : Shape := ⟨2, ![100000, 64]⟩
abbrev S1x64x64 : Shape := ⟨3, ![1, 64, 64]⟩
abbrev S64x64 : Shape := ⟨2, ![64, 64]⟩
abbrev S3300000x64 : Shape := ⟨2, ![3300000, 64]⟩
abbrev S1x64 : Shape := ⟨2, ![1, 64]⟩
abbrev S64 : Shape := ⟨1, ![64]⟩
abbrev S2048x64 : Shape := ⟨2, ![2048, 64]⟩
abbrev S2048 : Shape := ⟨1, ![2048]⟩
abbrev S2048x1 : Shape := ⟨2, ![2048, 1]⟩
abbrev S2048x32 : Shape := ⟨2, ![2048, 32]⟩
abbrev S1x32 : Shape := ⟨2, ![1, 32]⟩
abbrev S2048x16 : Shape := ⟨2, ![2048, 16]⟩
abbrev S1x16 : Shape := ⟨2, ![1, 16]⟩
abbrev S1x1 : Shape := ⟨2, ![1, 1]⟩

abbrev nBuf : Space → Nat
  | .hbm => 185
  | .vmem => 0
  | .smem => 0
  | _ => 0

abbrev hbmTy0_0 (i : Nat) : BufTy := match i % 128 with
  | 0 => ⟨S100000, .i32⟩
  | 1 => ⟨S2x3200000, .i32⟩
  | 2 => ⟨S100000, .i32⟩
  | 3 => ⟨S92x64, .f32⟩
  | 4 => ⟨S3x64x64, .f32⟩
  | 5 => ⟨S3x64, .f32⟩
  | 6 => ⟨S64x32, .f32⟩
  | 7 => ⟨S32, .f32⟩
  | 8 => ⟨S32x16, .f32⟩
  | 9 => ⟨S16, .f32⟩
  | 10 => ⟨S16x1, .f32⟩
  | 11 => ⟨S1, .f32⟩
  | 12 => ⟨S100000, .i32⟩
  | 13 => ⟨S1x3200000, .i32⟩
  | 14 => ⟨S3200000, .i32⟩
  | 15 => ⟨S3300000, .i32⟩
  | 16 => ⟨S1x3200000, .i32⟩
  | 17 => ⟨S3200000, .i32⟩
  | 18 => ⟨S3300000, .i32⟩
  | 19 => ⟨S_, .f32⟩
  | 20 => ⟨S100000, .f32⟩
  | 21 => ⟨S_, .i32⟩
  | 22 => ⟨S3300000, .i32⟩
  | 23 => ⟨S3300000, .i1⟩
  | 24 => ⟨S_, .i32⟩
  | 25 => ⟨S3300000, .i32⟩
  | 26 => ⟨S3300000, .i32⟩
  | 27 => ⟨S3300000, .i32⟩
  | 28 => ⟨S3300000x1, .i32⟩
  | 29 => ⟨S_, .f32⟩
  | 30 => ⟨S3300000, .f32⟩
  | 31 => ⟨S100000, .f32⟩
  | 32 => ⟨S_, .f32⟩
  | 33 => ⟨S100000, .f32⟩
  | 34 => ⟨S100000, .i1⟩
  | 35 => ⟨S100000, .f32⟩
  | 36 => ⟨S_, .f32⟩
  | 37 => ⟨S_, .f32⟩
  | 38 => ⟨S100000, .f32⟩
  | 39 => ⟨S100000, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000, .f32⟩
  | 58 => ⟨S3300000, .f32⟩
  | 59 => ⟨S_, .i32⟩
  | 60 => ⟨S100000, .i32⟩
  | 61 => ⟨S100000, .i1⟩
  | 62 => ⟨S_, .i32⟩
  | 63 => ⟨S100000, .i32⟩
  | 64 => ⟨S100000, .i32⟩
  | 65 => ⟨S100000, .i32⟩
  | 66 => ⟨S100000x1, .i32⟩
  | 67 => ⟨S100000x64, .f32⟩
  | 68 => ⟨S1x64x64, .f32⟩
  | 69 => ⟨S64x64, .f32⟩
  | 70 => ⟨S100000x64, .f32⟩
  | 71 => ⟨S_, .i32⟩
  | 72 => ⟨S3300000, .i32⟩
  | 73 => ⟨S3300000, .i1⟩
  | 74 => ⟨S_, .i32⟩
  | 75 => ⟨S3300000, .i32⟩
  | 76 => ⟨S3300000, .i32⟩
  | 77 => ⟨S3300000, .i32⟩
  | 78 => ⟨S3300000x1, .i32⟩
  | 79 => ⟨S3300000x64, .f32⟩
  | 80 => ⟨S3300000x1, .f32⟩
  | 81 => ⟨S3300000x64, .f32⟩
  | 82 => ⟨S3300000x64, .f32⟩
  | 83 => ⟨S_, .f32⟩
  | 84 => ⟨S100000x64, .f32⟩
  | 85 => ⟨S3300000x1, .i32⟩
  | 86 => ⟨S100000x64, .f32⟩
  | 87 => ⟨S1x64, .f32⟩
  | 88 => ⟨S64, .f32⟩
  | 89 => ⟨S1x64, .f32⟩
  | 90 => ⟨S100000x64, .f32⟩
  | 91 => ⟨S100000x64, .f32⟩
  | 92 => ⟨S_, .f32⟩
  | 93 => ⟨S100000x64, .f32⟩
  | 94 => ⟨S100000x64, .f32⟩
  | 95 => ⟨S1x64x64, .f32⟩
  | 96 => ⟨S64x64, .f32⟩
  | 97 => ⟨S100000x64, .f32⟩
  | 98 => ⟨S_, .i32⟩
  | 99 => ⟨S3300000, .i32⟩
  | 100 => ⟨S3300000, .i1⟩
  | 101 => ⟨S_, .i32⟩
  | 102 => ⟨S3300000, .i32⟩
  | 103 => ⟨S3300000, .i32⟩
  | 104 => ⟨S3300000, .i32⟩
  | 105 => ⟨S3300000x1, .i32⟩
  | 106 => ⟨S3300000x64, .f32⟩
  | 107 => ⟨S3300000x1, .f32⟩
  | 108 => ⟨S3300000x64, .f32⟩
  | 109 => ⟨S3300000x64, .f32⟩
  | 110 => ⟨S_, .f32⟩
  | 111 => ⟨S100000x64, .f32⟩
  | 112 => ⟨S3300000x1, .i32⟩
  | 113 => ⟨S100000x64, .f32⟩
  | 114 => ⟨S1x64, .f32⟩
  | 115 => ⟨S64, .f32⟩
  | 116 => ⟨S1x64, .f32⟩
  | 117 => ⟨S100000x64, .f32⟩
  | 118 => ⟨S100000x64, .f32⟩
  | 119 => ⟨S_, .f32⟩
  | 120 => ⟨S100000x64, .f32⟩
  | 121 => ⟨S100000x64, .f32⟩
  | 122 => ⟨S100000x64, .f32⟩
  | 123 => ⟨S1x64x64, .f32⟩
  | 124 => ⟨S64x64, .f32⟩
  | 125 => ⟨S100000x64, .f32⟩
  | 126 => ⟨S_, .i32⟩
  | 127 => ⟨S3300000, .i32⟩
  | _ => ⟨S100000, .i32⟩

abbrev hbmTy0_1 (i : Nat) : BufTy := match i % 128 with
  | 0 => ⟨S3300000, .i1⟩
  | 1 => ⟨S_, .i32⟩
  | 2 => ⟨S3300000, .i32⟩
  | 3 => ⟨S3300000, .i32⟩
  | 4 => ⟨S3300000, .i32⟩
  | 5 => ⟨S3300000x1, .i32⟩
  | 6 => ⟨S3300000x64, .f32⟩
  | 7 => ⟨S3300000x1, .f32⟩
  | 8 => ⟨S3300000x64, .f32⟩
  | 9 => ⟨S3300000x64, .f32⟩
  | 10 => ⟨S_, .f32⟩
  | 11 => ⟨S100000x64, .f32⟩
  | 12 => ⟨S3300000x1, .i32⟩
  | 13 => ⟨S100000x64, .f32⟩
  | 14 => ⟨S1x64, .f32⟩
  | 15 => ⟨S64, .f32⟩
  | 16 => ⟨S1x64, .f32⟩
  | 17 => ⟨S100000x64, .f32⟩
  | 18 => ⟨S100000x64, .f32⟩
  | 19 => ⟨S_, .f32⟩
  | 20 => ⟨S100000x64, .f32⟩
  | 21 => ⟨S100000x64, .f32⟩
  | 22 => ⟨S100000x64, .f32⟩
  | 23 => ⟨S_, .f32⟩
  | 24 => ⟨S2048x64, .f32⟩
  | 25 => ⟨S100000x1, .i32⟩
  | 26 => ⟨S2048x64, .f32⟩
  | 27 => ⟨S_, .f32⟩
  | 28 => ⟨S100000, .f32⟩
  | 29 => ⟨S_, .f32⟩
  | 30 => ⟨S2048, .f32⟩
  | 31 => ⟨S100000x1, .i32⟩
  | 32 => ⟨S2048, .f32⟩
  | 33 => ⟨S_, .f32⟩
  | 34 => ⟨S2048, .f32⟩
  | 35 => ⟨S2048, .f32⟩
  | 36 => ⟨S2048x1, .f32⟩
  | 37 => ⟨S2048x64, .f32⟩
  | 38 => ⟨S2048x64, .f32⟩
  | 39 => ⟨S2048x32, .f32⟩
  | 40 => ⟨S1x32, .f32⟩
  | 41 => ⟨S2048x32, .f32⟩
  | 42 => ⟨S2048x32, .f32⟩
  | 43 => ⟨S_, .f32⟩
  | 44 => ⟨S2048x32, .f32⟩
  | 45 => ⟨S2048x32, .f32⟩
  | 46 => ⟨S2048x16, .f32⟩
  | 47 => ⟨S1x16, .f32⟩
  | 48 => ⟨S2048x16, .f32⟩
  | 49 => ⟨S2048x16, .f32⟩
  | 50 => ⟨S_, .f32⟩
  | 51 => ⟨S2048x16, .f32⟩
  | 52 => ⟨S2048x16, .f32⟩
  | 53 => ⟨S2048x1, .f32⟩
  | 54 => ⟨S1x1, .f32⟩
  | 55 => ⟨S2048x1, .f32⟩
  | 56 => ⟨S2048x1, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_c_5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_c_7 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_c_9 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_10 : Ref sig .tc := ⟨.hbm, 71, rfl⟩
abbrev main_v45 : Ref sig .tc := ⟨.hbm, 72, rfl⟩
abbrev main_v46 : Ref sig .tc := ⟨.hbm, 73, rfl⟩
abbrev main_c_11 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_call1_cst : Ref sig .tc := ⟨.hbm, 92, rfl⟩
abbrev main_call1_v0 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_13 : Ref sig .tc := ⟨.hbm, 98, rfl⟩
abbrev main_v67 : Ref sig .tc := ⟨.hbm, 99, rfl⟩
abbrev main_v68 : Ref sig .tc := ⟨.hbm, 100, rfl⟩
abbrev main_c_14 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_15 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_call2_cst : Ref sig .tc := ⟨.hbm, 119, rfl⟩
abbrev main_call2_v0 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_c_16 : Ref sig .tc := ⟨.hbm, 126, rfl⟩
abbrev main_v90 : Ref sig .tc := ⟨.hbm, 127, rfl⟩
abbrev main_v91 : Ref sig .tc := ⟨.hbm, 128, rfl⟩
abbrev main_c_17 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_18 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_call3_cst : Ref sig .tc := ⟨.hbm, 147, rfl⟩
abbrev main_call3_v0 : Ref sig .tc := ⟨.hbm, 148, rfl⟩
abbrev main_v108 : Ref sig .tc := ⟨.hbm, 149, rfl⟩
abbrev main_v109 : Ref sig .tc := ⟨.hbm, 150, rfl⟩
abbrev main_cst_19 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_cst_20 : Ref sig .tc := ⟨.hbm, 155, rfl⟩
abbrev main_v113 : Ref sig .tc := ⟨.hbm, 156, rfl⟩
abbrev main_cst_21 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_cst_22 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_call4_cst : Ref sig .tc := ⟨.hbm, 171, rfl⟩
abbrev main_call4_v0 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_call5_cst : Ref sig .tc := ⟨.hbm, 178, rfl⟩
abbrev main_call5_v0 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S_S3300000 : S_.BroadcastsInDim S3300000 (![] : Fin 0 → Fin S3300000.rank)
  bcast_S3300000_S3300000x1_0 : S3300000.BroadcastsInDim S3300000x1 (![0] : Fin 1 → Fin S3300000x1.rank)
  bcast_S100000_S100000x1_0 : S100000.BroadcastsInDim S100000x1 (![0] : Fin 1 → Fin S100000x1.rank)
  slices_S3x64x64_S1x64x64_0_0_0 : S3x64x64.Slices ![0, 0, 0] S1x64x64
  shapeCasts_S1x64x64_S64x64 : S1x64x64.ShapeCasts S64x64
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S2048x64 : S_.BroadcastsInDim S2048x64 (![] : Fin 0 → Fin S2048x64.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  bcast_S_S2048x32 : S_.BroadcastsInDim S2048x32 (![] : Fin 0 → Fin S2048x32.rank)
  bcast_S16_S1x16_1 : S16.BroadcastsInDim S1x16 (![1] : Fin 1 → Fin S1x16.rank)
  bcast_S1x16_S2048x16_0_1 : S1x16.BroadcastsInDim S2048x16 (![0, 1] : Fin 2 → Fin S2048x16.rank)
  bcast_S_S2048x16 : S_.BroadcastsInDim S2048x16 (![] : Fin 0 → Fin S2048x16.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S92x64_S100000x1_S100000x64_1_0_n_n_0_1_164_wf : GatherDims.WF S92x64 S100000x1 S100000x64 [1] [0] [] [0] [] 1 ![1, 64]
  dot_S100000x64_S64x64_S100000x64_1_0_0_1_n_n_wf : DotDims.WF S100000x64 S64x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  scatter_S2048x64_S100000x1_S100000x64_1_0_0_1_wf : ScatterDims.WF S2048x64 S100000x1 S100000x64 [1] [0] [0] 1
  scatter_S2048_S100000x1_S100000_n_0_0_1_wf : ScatterDims.WF S2048 S100000x1 S100000 [] [0] [0] 1
  dot_S2048x64_S64x32_S2048x32_1_0_0_1_n_n_wf : DotDims.WF S2048x64 S64x32 S2048x32 [1] [0] [0] [1] [] []
  dot_S2048x32_S32x16_S2048x16_1_0_0_1_n_n_wf : DotDims.WF S2048x32 S32x16 S2048x16 [1] [0] [0] [1] [] []
  dot_S2048x16_S16x1_S2048x1_1_0_0_1_n_n_wf : DotDims.WF S2048x16 S16x1 S2048x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S92x64_S100000x1_S100000x64_1_0_n_n_0_1_164 : GatherDims S92x64 S100000x1 S100000x64 where
  offsetDims := [1]
  collapsedSliceDims := [0]
  operandBatchingDims := []
  startIndicesBatchingDims := []
  startIndexMap := [0]
  indexVectorDim := 1
  sliceSizes := ![1, 64]
  wf := gather_S92x64_S100000x1_S100000x64_1_0_n_n_0_1_164_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def scatter_S2048x64_S100000x1_S100000x64_1_0_0_1 : ScatterDims S2048x64 S100000x1 S100000x64 where
  updateWindowDims := [1]
  insertedWindowDims := [0]
  scatterDimsToOperandDims := [0]
  indexVectorDim := 1
  wf := scatter_S2048x64_S100000x1_S100000x64_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S2048x32_S32x16_S2048x16_1_0_0_1_n_n : DotDims S2048x32 S32x16 S2048x16 where
  lhsContracting := [1]
  rhsContracting := [0]
  lhsNonContracting := [0]
  rhsNonContracting := [1]
  lhsBatch := []
  rhsBatch := []
  wf := dot_S2048x32_S32x16_S2048x16_1_0_0_1_n_n_wf
def dot_S2048x16_S16x1_S2048x1_1_0_0_1_n_n : DotDims S2048x16 S16x1 S2048x1 where
  lhsContracting := [1]
  rhsContracting := [0]
  lhsNonContracting := [0]
  rhsNonContracting := [1]
  lhsBatch := []
  rhsBatch := []
  wf := dot_S2048x16_S16x1_S2048x1_1_0_0_1_n_n_wf

class Facts : Prop extends Facts₀ where

variable [Facts]
-- ==== Proof.KernelRun.lean ====
/-
  The idealized kernel's run, with its result named.

  The program is seven kernel launches among stretches of host operations.  Its run is a chain of segment
  boundaries: at each boundary every unscoped buffer holds a known array (the fold `W0 … W16`: a host stretch
  applies its operations to the previous boundary's arrays, a launch replaces its arrays by what its write-backs
  leave).  The frame claim reads only the argument arrays off the last boundary.  Reading the result buffer off
  it as well, the run states what the program returns: the array the last boundary holds at the result buffer.
-/
import proofs.«124983_j78881369358664_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a final memory satisfies once every unscoped buffer holds the last boundary's array: the result buffer
    holds the last boundary's array there, and each argument array, which no segment writes, is as launched. -/
def Ends (s : MemSt nD τ sig (Elt F)) : Prop := ∀ c : Dev nD,
  s.mem ((c.tc : Thread nD τ).loc main_v107) = W16 m ρ c (Proc.devRef .tc main_v107)
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)
  ∧ s.mem ((c.tc : Thread nD τ).loc main_arg11) = m ((c.tc : Thread nD τ).loc main_arg11)

/-- A memory that agrees with the last boundary on every unscoped buffer ends as `Ends` says: the result by that
    agreement alone, an argument by walking the fold back to the launch. -/
theorem ends_of_last (s : MemSt nD τ sig (Elt F))
    (h : ∀ c : Dev nD, ∀ b ∈ Pipeline.ucRefs τ sig, s.mem (((c : Thread nD τ)).1, b) = W16 m ρ c b) : Ends m ρ s := fun c =>
  ⟨h c _ (mem_uc main_v107 (by decide)),
   (h c _ (mem_uc main_arg0 (by decide))).trans (W16_main_arg0 m ρ c),
   (h c _ (mem_uc main_arg1 (by decide))).trans (W16_main_arg1 m ρ c),
   (h c _ (mem_uc main_arg2 (by decide))).trans (W16_main_arg2 m ρ c),
   (h c _ (mem_uc main_arg3 (by decide))).trans (W16_main_arg3 m ρ c),
   (h c _ (mem_uc main_arg4 (by decide))).trans (W16_main_arg4 m ρ c),
   (h c _ (mem_uc main_arg5 (by decide))).trans (W16_main_arg5 m ρ c),
   (h c _ (mem_uc main_arg6 (by decide))).trans (W16_main_arg6 m ρ c),
   (h c _ (mem_uc main_arg7 (by decide))).trans (W16_main_arg7 m ρ c),
   (h c _ (mem_uc main_arg8 (by decide))).trans (W16_main_arg8 m ρ c),
   (h c _ (mem_uc main_arg9 (by decide))).trans (W16_main_arg9 m ρ c),
   (h c _ (mem_uc main_arg10 (by decide))).trans (W16_main_arg10 m ρ c),
   (h c _ (mem_uc main_arg11 (by decide))).trans (W16_main_arg11 m ρ c)⟩

-- the regions theorem's implicit arguments are found by unifying its conclusion with the statement below, which
-- unfolds plain definitions inside a metavariable's type
set_option backward.isDefEq.respectTransparency.types false in
/-- Every weakly fair execution of the program terminates, nothing faulting, in a memory that `Ends`: the library's
    theorem for a program of several launches, over the program's sixteen segments, launched from a memory with zero
    counters, the thread state of the last segment read against the final memory. -/
theorem run_value : θ_run defs (onTc (τ := τ) (main (F := F))) ⟨m, fun _ => 0, ρ⟩ (fun r => Ends m ρ r.2) :=
  Pipeline.θ_run_regions_kit (pcfgs (F := F)) adm (pdats m ρ) () cellOf_inj emb₁ defs₀ 𝒱₀ L lv m ρ main (segs m ρ)
    -- the program is the run of its segments
    (fun c Q => by rw [main_run m ρ c])
    -- no pipeline is launched twice
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    -- the launch's tokens are the pipelines' initial ones; nothing else is handed to a core
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by
        rw [BI.bigSep_emp_const])
      iempintro)
    -- a core starts holding every unscoped buffer at the launch memory, and ends holding them at the last boundary
    (T₀ := fun c => iprop(StableHlo.held (c : Thread nD τ) (Pipeline.ucRefs τ sig) (W0 m ρ c) ∗ R c)) (Tₙ := Tₙ m ρ)
    -- each segment's post is the next one's pre, as stated
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun _ => .rfl⟩)
    -- the launch memory gives each core its first thread state
    (hinit := by
      refine Pipeline.initEach L lv fun c => ?_
      rw [show unscopedBufs c (fun b => m ((c : Thread nD τ).loc b))
          = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    -- the last thread state, read against the final memory: every unscoped buffer at the last boundary's array
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h => ends_of_last m ρ s h)

end Cert.KernelIdeal.RunValue

end
-- ==== Proof.LibHostLine.lean ====
/-
  Two general facts about a straight line of host array operations.

  1. The buffers after a concatenated line `l₁ ++ l₂` are the buffers after `l₂` from the buffers after `l₁`: a long
     line can be cut into short parts and each part read on its own, at an arbitrary state of the buffers.
  2. The operations of a called function read and write each buffer through its tensor type: a value is carried into the
     buffer's type (`TRef.toBuf`) and back (`TRef.ofBuf`) along the equation between the two types. There and back is
     the identity, for ANY typed reference (by substituting the equation, without evaluating the buffer table), and
     either way the carried value is the value it was (as a heterogeneous equation, which becomes an equation wherever
     the two types are the same by computation).
-/
import Idealize.ShloMosaic.Lib.StableHlo.Run

namespace Cert.HostLine

open Idealize.ShloMosaic Idealize.ShloMosaic.StableHlo

/-- The fold of a concatenated line is the fold of its second part over the fold of its first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Into a buffer's type and back is the identity. -/
theorem ofBuf_toBuf {sig : RefSig} {T : BufTy} {Val : EltTy → Type} (x : TRef sig T) (v : T.Contents Val) :
    x.ofBuf (x.toBuf v) = v := by
  obtain ⟨r, h, h1, h2⟩ := x
  subst h
  rfl

/-- A value carried into a buffer's type is that value. -/
theorem toBuf_heq {sig : RefSig} {T : BufTy} {Val : EltTy → Type} (x : TRef sig T) (v : T.Contents Val) : HEq (x.toBuf v) v :=
  cast_heq _ _

/-- A buffer's contents read at its tensor type are those contents. -/
theorem ofBuf_heq {sig : RefSig} {T : BufTy} {Val : EltTy → Type} (x : TRef sig T) (v : x.ref.ty.Contents Val) : HEq (x.ofBuf v) v :=
  cast_heq _ _

end Cert.HostLine
-- ==== Proof.ChainGlue.lean ====
/-
  The kernel program before its first launch, and what every later segment boundary keeps.

  Three stretches of host operations run from the launch memory: the edge lists with self loops appended, the node
  degrees, their inverse square roots (zero where a degree is not positive), the edge weights, the embedding rows
  and the first layer's weight.  They are the reference's own first operations, so each buffer read after them is
  the reference's stage of the launch arguments.  The edge lists, the edge weights and the argument arrays are read
  again by later segments and written by none: a host stretch that does not write a buffer leaves it, and a launch
  leaves every buffer that is not one of its arrays.
-/
import proofs.«124983_j78881369358664_1_alg».proof.Proof.Gen.KernelIdeal.Frame
import proofs.«124983_j78881369358664_1_alg».proof.Proof.RefRead
import proofs.«124983_j78881369358664_1_alg».proof.Proof.LibHostLine
import Idealize.ShloMosaic.Lib.StableHlo.Run

set_option maxRecDepth 16384

noncomputable section

namespace Cert.Chain

open Cert.KernelIdeal Cert.KernelIdeal.Gen
open Cert.ReferenceIdeal.Read
open Idealize.ShloMosaic Idealize.ShloMosaic.TcCoe Idealize.SL.Sem Idealize.ShloMosaic.StableHlo

set_option quotPrecheck false

variable (m : (ℓ : Loc nD τ sig) → Buf (Elt Ideal) ℓ) (ρ : Dev nD → PrngReg) (c : Dev nD)

-- the launch arguments, as the reference's stages take them
local notation "x0" => m ((c.tc : Thread nD τ).loc main_arg0)
local notation "x1" => m ((c.tc : Thread nD τ).loc main_arg1)
local notation "x2" => m ((c.tc : Thread nD τ).loc main_arg2)
local notation "x3" => m ((c.tc : Thread nD τ).loc main_arg3)
local notation "x4" => m ((c.tc : Thread nD τ).loc main_arg4)
local notation "x5" => m ((c.tc : Thread nD τ).loc main_arg5)
local notation "x6" => m ((c.tc : Thread nD τ).loc main_arg6)
local notation "x7" => m ((c.tc : Thread nD τ).loc main_arg7)
local notation "x8" => m ((c.tc : Thread nD τ).loc main_arg8)
local notation "x9" => m ((c.tc : Thread nD τ).loc main_arg9)
local notation "x10" => m ((c.tc : Thread nD τ).loc main_arg10)
local notation "x11" => m ((c.tc : Thread nD τ).loc main_arg11)

/-! ## The first stretch: edge lists and degrees -/

/-- The buffers the first three stretches must leave alone: the argument arrays. -/
def argRefs : List (Ref sig .tc) :=
  [main_arg0, main_arg1, main_arg2, main_arg3, main_arg4, main_arg5, main_arg6, main_arg7, main_arg8, main_arg9, main_arg10, main_arg11]

set_option maxHeartbeats 4000000 in
/-- The first stretch writes no argument array. -/
theorem W1_arg : ∀ b ∈ argRefs, W1 m ρ c (Proc.devRef .tc b) = m ((c.tc : Thread nD τ).loc b) := by
  intro b hb
  simp only [argRefs, List.mem_cons, List.mem_singleton, List.not_mem_nil, or_false] at hb
  rcases hb with rfl | rfl | rfl | rfl | rfl | rfl | rfl | rfl | rfl | rfl | rfl | rfl <;>
    (show StableHlo.after hostOps0 (W0 m ρ c) _ = _
     after_results
     first | done | rfl)

/-- The source node of every edge, self loops appended. -/
theorem W1_v3 : W1 m ρ c (Proc.devRef .tc main_v3) = val_main_v3 x1 := by
  show StableHlo.after hostOps0 (W0 m ρ c) _ = _
  after_results; rfl

/-- The target node of every edge, self loops appended. -/
theorem W1_v6 : W1 m ρ c (Proc.devRef .tc main_v6) = val_main_v6 x1 := by
  show StableHlo.after hostOps0 (W0 m ρ c) _ = _
  after_results; rfl

set_option maxHeartbeats 4000000 in
/-- Where a node's degree is positive. -/
theorem W1_v17 : W1 m ρ c (Proc.devRef .tc main_v17) = val_main_v17 x1 := by
  show StableHlo.after hostOps0 (W0 m ρ c) _ = _
  after_results; rfl

set_option maxHeartbeats 4000000 in
/-- The inverse square root of every node's degree. -/
theorem W1_v18 : W1 m ρ c (Proc.devRef .tc main_v18) = val_main_v18 x1 := by
  show StableHlo.after hostOps0 (W0 m ρ c) _ = _
  after_results; rfl

/-- The zero that replaces it where the degree is not positive. -/
theorem W1_cst3 : W1 m ρ c (Proc.devRef .tc main_cst_3) = val_main_cst_3 := by
  show StableHlo.after hostOps0 (W0 m ρ c) _ = _
  after_results; rfl

/-! ## The second stretch: the choice between the two -/

/-- The second stretch is an inlined function, its operations spelt over references typed by the values they hold:
    reading a value through such a reference, of the value's own type, changes nothing. -/
theorem ofBuf_of {T : BufTy} (r : Ref sig .tc) (h₁ : r.ty = T) (h₂ : r.space ≠ .host) (h₃ : r.isScoped = false)
    (v : r.ty.Contents (Elt Ideal)) (w : T.Contents (Elt Ideal)) (hvw : HEq v w) :
    (StableHlo.TRef.of r h₁ h₂ h₃).ofBuf v = w :=
  eq_of_heq ((Cert.HostLine.ofBuf_heq _ _).trans hvw)

set_option maxHeartbeats 4000000 in
/-- The inverse square root of each node's degree, zero where the degree is not positive. -/
theorem W2_v19 : W2 m ρ c (Proc.devRef .tc main_v19) = val_main_v19 x1 := by
  have h17 := W1_v17 m ρ c; have h18 := W1_v18 m ρ c; have h3 := W1_cst3 m ρ c
  show StableHlo.after hostOps0_1 (W1 m ρ c) _ = _
  generalize W1 m ρ c = X at h17 h18 h3 ⊢
  after_results
  rw [h17, h18, h3]
  simp only [Cert.HostLine.ofBuf_toBuf]
  refine eq_of_heq ((Cert.HostLine.toBuf_heq _ _).trans (heq_of_eq ?_))
  rw [ofBuf_of main_v17 _ _ _ _ (val_main_v17 x1) HEq.rfl, ofBuf_of main_v18 _ _ _ _ (val_main_v18 x1) HEq.rfl,
    ofBuf_of main_cst_3 _ _ _ _ val_main_cst_3 HEq.rfl]
  rfl

theorem W2_v3 : W2 m ρ c (Proc.devRef .tc main_v3) = val_main_v3 x1 := by
  have h := W1_v3 m ρ c
  show StableHlo.after hostOps0_1 (W1 m ρ c) _ = _
  generalize W1 m ρ c = X at h ⊢
  after_results
  exact h

theorem W2_v6 : W2 m ρ c (Proc.devRef .tc main_v6) = val_main_v6 x1 := by
  have h := W1_v6 m ρ c
  show StableHlo.after hostOps0_1 (W1 m ρ c) _ = _
  generalize W1 m ρ c = X at h ⊢
  after_results
  exact h

/-- The second stretch writes no argument array. -/
theorem W2_arg : ∀ b ∈ argRefs, W2 m ρ c (Proc.devRef .tc b) = m ((c.tc : Thread nD τ).loc b) := by
  intro b hb
  refine Eq.trans ?_ (W1_arg m ρ c b hb)
  show StableHlo.after hostOps0_1 (W1 m ρ c) _ = _
  generalize W1 m ρ c = X
  simp only [argRefs, List.mem_cons, List.mem_singleton, List.not_mem_nil, or_false] at hb
  rcases hb with rfl | rfl | rfl | rfl | rfl | rfl | rfl | rfl | rfl | rfl | rfl | rfl <;> after_results

/-! ## The third stretch: edge weights, embedding rows, the first weight -/

set_option maxHeartbeats 4000000 in
/-- The weight of every edge: the product of the inverse square roots of its two ends' degrees (zero where a
    degree is not positive). -/
theorem W3_v34 : W3 m ρ c (Proc.devRef .tc main_v34) = val_main_v34 x1 := by
  have h19 := W2_v19 m ρ c; have h3 := W2_v3 m ρ c; have h6 := W2_v6 m ρ c
  show StableHlo.after hostOps0_2 (W2 m ρ c) _ = _
  generalize W2 m ρ c = X at h19 h3 h6 ⊢
  after_results
  rw [h19, h3, h6]
  rfl

set_option maxHeartbeats 4000000 in
/-- The embedding row of every node. -/
theorem W3_v41 : W3 m ρ c (Proc.devRef .tc main_v41) = val_main_v41 x0 x3 := by
  have h0 := W2_arg m ρ c main_arg0 (by decide); have h3 := W2_arg m ρ c main_arg3 (by decide)
  show StableHlo.after hostOps0_2 (W2 m ρ c) _ = _
  generalize W2 m ρ c = X at h0 h3 ⊢
  after_results
  rw [h0, h3]
  rfl

set_option maxHeartbeats 4000000 in
/-- The first layer's weight matrix. -/
theorem W3_v43 : W3 m ρ c (Proc.devRef .tc main_v43) = val_main_v43 x4 := by
  have h4 := W2_arg m ρ c main_arg4 (by decide)
  show StableHlo.after hostOps0_2 (W2 m ρ c) _ = _
  generalize W2 m ρ c = X at h4 ⊢
  after_results
  rw [h4]
  rfl

theorem W3_v3 : W3 m ρ c (Proc.devRef .tc main_v3) = val_main_v3 x1 := by
  have h := W2_v3 m ρ c
  show StableHlo.after hostOps0_2 (W2 m ρ c) _ = _
  generalize W2 m ρ c = X at h ⊢
  after_results
  exact h

theorem W3_v6 : W3 m ρ c (Proc.devRef .tc main_v6) = val_main_v6 x1 := by
  have h := W2_v6 m ρ c
  show StableHlo.after hostOps0_2 (W2 m ρ c) _ = _
  generalize W2 m ρ c = X at h ⊢
  after_results
  exact h

set_option maxHeartbeats 4000000 in
/-- An argument array is still the launch's after the three stretches: none of them writes one. -/
theorem W3_arg : ∀ b ∈ argRefs, W3 m ρ c (Proc.devRef .tc b) = m ((c.tc : Thread nD τ).loc b) := by
  intro b hb
  refine Eq.trans ?_ (W2_arg m ρ c b hb)
  show StableHlo.after hostOps0_2 (W2 m ρ c) _ = _
  generalize W2 m ρ c = X
  simp only [argRefs, List.mem_cons, List.mem_singleton, List.not_mem_nil, or_false] at hb
  rcases hb with rfl | rfl | rfl | rfl | rfl | rfl | rfl | rfl | rfl | rfl | rfl | rfl <;> after_results

/-! ## What every later boundary keeps

The edge lists, the edge weights and the argument arrays are read again by later segments and written by none:
a host stretch that does not write a buffer leaves it, and a launch leaves every buffer that is not one of its
arrays. -/

/-- The buffers later segments read and no segment after the third stretch writes. -/
def liveRefs : List (Ref sig .tc) :=
  [main_v3, main_v6, main_v34, main_arg2, main_arg4, main_arg5, main_arg6, main_arg7, main_arg8, main_arg9, main_arg10, main_arg11]

theorem agree4 : ∀ b ∈ liveRefs, W4 m ρ c (Proc.devRef .tc b) = W3 m ρ c (Proc.devRef .tc b) :=
  fun b hb => W4_of_ne m ρ c b ((by decide : ∀ b ∈ liveRefs, ∀ w, Pipeline.arrRef spec0 w ≠ b) b hb)
set_option maxHeartbeats 4000000 in
theorem agree5 : ∀ b ∈ liveRefs, W5 m ρ c (Proc.devRef .tc b) = W4 m ρ c (Proc.devRef .tc b) := by
  intro b hb
  simp only [liveRefs, List.mem_cons, List.mem_singleton, List.not_mem_nil, or_false] at hb
  rcases hb with rfl | rfl | rfl | rfl | rfl | rfl | rfl | rfl | rfl | rfl | rfl | rfl <;>
    (show StableHlo.after _ _ _ = _; after_results)
theorem agree6 : ∀ b ∈ liveRefs, W6 m ρ c (Proc.devRef .tc b) = W5 m ρ c (Proc.devRef .tc b) :=
  fun b hb => W6_of_ne m ρ c b ((by decide : ∀ b ∈ liveRefs, ∀ w, Pipeline.arrRef spec1 w ≠ b) b hb)
set_option maxHeartbeats 4000000 in
theorem agree7 : ∀ b ∈ liveRefs, W7 m ρ c (Proc.devRef .tc b) = W6 m ρ c (Proc.devRef .tc b) := by
  intro b hb
  simp only [liveRefs, List.mem_cons, List.mem_singleton, List.not_mem_nil, or_false] at hb
  rcases hb with rfl | rfl | rfl | rfl | rfl | rfl | rfl | rfl | rfl | rfl | rfl | rfl <;>
    (show StableHlo.after _ _ _ = _; after_results)
theorem agree8 : ∀ b ∈ liveRefs, W8 m ρ c (Proc.devRef .tc b) = W7 m ρ c (Proc.devRef .tc b) :=
  fun b hb => W8_of_ne m ρ c b ((by decide : ∀ b ∈ liveRefs, ∀ w, Pipeline.arrRef spec2 w ≠ b) b hb)
set_option maxHeartbeats 4000000 in
theorem agree9 : ∀ b ∈ liveRefs, W9 m ρ c (Proc.devRef .tc b) = W8 m ρ c (Proc.devRef .tc b) := by
  intro b hb
  simp only [liveRefs, List.mem_cons, List.mem_singleton, List.not_mem_nil, or_false] at hb
  rcases hb with rfl | rfl | rfl | rfl | rfl | rfl | rfl | rfl | rfl | rfl | rfl | rfl <;>
    (show StableHlo.after _ _ _ = _; after_results)
theorem agree10 : ∀ b ∈ liveRefs, W10 m ρ c (Proc.devRef .tc b) = W9 m ρ c (Proc.devRef .tc b) :=
  fun b hb => W10_of_ne m ρ c b ((by decide : ∀ b ∈ liveRefs, ∀ w, Pipeline.arrRef spec3 w ≠ b) b hb)
set_option maxHeartbeats 4000000 in
theorem agree11 : ∀ b ∈ liveRefs, W11 m ρ c (Proc.devRef .tc b) = W10 m ρ c (Proc.devRef .tc b) := by
  intro b hb
  simp only [liveRefs, List.mem_cons, List.mem_singleton, List.not_mem_nil, or_false] at hb
  rcases hb with rfl | rfl | rfl | rfl | rfl | rfl | rfl | rfl | rfl | rfl | rfl | rfl <;>
    (show StableHlo.after _ _ _ = _; after_results)
theorem agree12 : ∀ b ∈ liveRefs, W12 m ρ c (Proc.devRef .tc b) = W11 m ρ c (Proc.devRef .tc b) :=
  fun b hb => W12_of_ne m ρ c b ((by decide : ∀ b ∈ liveRefs, ∀ w, Pipeline.arrRef spec4 w ≠ b) b hb)
set_option maxHeartbeats 4000000 in
theorem agree13 : ∀ b ∈ liveRefs, W13 m ρ c (Proc.devRef .tc b) = W12 m ρ c (Proc.devRef .tc b) := by
  intro b hb
  simp only [liveRefs, List.mem_cons, List.mem_singleton, List.not_mem_nil, or_false] at hb
  rcases hb with rfl | rfl | rfl | rfl | rfl | rfl | rfl | rfl | rfl | rfl | rfl | rfl <;>
    (show StableHlo.after _ _ _ = _; after_results)
theorem agree14 : ∀ b ∈ liveRefs, W14 m ρ c (Proc.devRef .tc b) = W13 m ρ c (Proc.devRef .tc b) :=
  fun b hb => W14_of_ne m ρ c b ((by decide : ∀ b ∈ liveRefs, ∀ w, Pipeline.arrRef spec5 w ≠ b) b hb)
set_option maxHeartbeats 4000000 in
theorem agree15 : ∀ b ∈ liveRefs, W15 m ρ c (Proc.devRef .tc b) = W14 m ρ c (Proc.devRef .tc b) := by
  intro b hb
  simp only [liveRefs, List.mem_cons, List.mem_singleton, List.not_mem_nil, or_false] at hb
  rcases hb with rfl | rfl | rfl | rfl | rfl | rfl | rfl | rfl | rfl | rfl | rfl | rfl <;>
    (show StableHlo.after _ _ _ = _; after_results)

/-- A live buffer at the boundaries where a later segment reads it, back at the third stretch's end. -/
theorem live4 (b : Ref sig .tc) (hb : b ∈ liveRefs) : W4 m ρ c (Proc.devRef .tc b) = W3 m ρ c (Proc.devRef .tc b) := agree4 m ρ c b hb
theorem live6 (b : Ref sig .tc) (hb : b ∈ liveRefs) : W6 m ρ c (Proc.devRef .tc b) = W3 m ρ c (Proc.devRef .tc b) :=
  (agree6 m ρ c b hb).trans ((agree5 m ρ c b hb).trans (live4 m ρ c b hb))
theorem live8 (b : Ref sig .tc) (hb : b ∈ liveRefs) : W8 m ρ c (Proc.devRef .tc b) = W3 m ρ c (Proc.devRef .tc b) :=
  (agree8 m ρ c b hb).trans ((agree7 m ρ c b hb).trans (live6 m ρ c b hb))
theorem live10 (b : Ref sig .tc) (hb : b ∈ liveRefs) : W10 m ρ c (Proc.devRef .tc b) = W3 m ρ c (Proc.devRef .tc b) :=
  (agree10 m ρ c b hb).trans ((agree9 m ρ c b hb).trans (live8 m ρ c b hb))
theorem live12 (b : Ref sig .tc) (hb : b ∈ liveRefs) : W12 m ρ c (Proc.devRef .tc b) = W3 m ρ c (Proc.devRef .tc b) :=
  (agree12 m ρ c b hb).trans ((agree11 m ρ c b hb).trans (live10 m ρ c b hb))
theorem live14 (b : Ref sig .tc) (hb : b ∈ liveRefs) : W14 m ρ c (Proc.devRef .tc b) = W3 m ρ c (Proc.devRef .tc b) :=
  (agree14 m ρ c b hb).trans ((agree13 m ρ c b hb).trans (live12 m ρ c b hb))
theorem live15 (b : Ref sig .tc) (hb : b ∈ liveRefs) : W15 m ρ c (Proc.devRef .tc b) = W3 m ρ c (Proc.devRef .tc b) :=
  (agree15 m ρ c b hb).trans (live14 m ρ c b hb)

end Cert.Chain

end
-- ==== Proof.Spec.lean ====
/-
  The dense stages of the graph network, as plain functions on arrays of extended reals.

  A node-feature matrix is an array indexed by (node, channel).  Four stages act on such matrices:
  * the product of a matrix with a weight matrix, entry (r, c) being the sum over k of x(r, k) * w(k, c);
  * bias-then-rectify: entry (r, c) is max (agg(r, c) + bias(c)) 0;
  * the same with a residual term added: prev(r, c) + max (agg(r, c) + bias(c)) 0;
  * the read-out head: per-graph sums divided by max (count, 1), then two rectified affine layers and a last
    affine layer.
  Every index below is spelt by its coordinates, so that a statement about one of these functions at an index
  can be compared with a program's array read at the same coordinates.
-/
import Idealize.ShloMosaic.PureOps.Ideal
import Idealize.ShloMosaic.Lib.ValueIdx

noncomputable section

namespace Cert.GraphNet

open Idealize.ShloMosaic

/-- Matrices with `a` rows and `b` columns, and vectors of length `b`, over the extended reals. -/
abbrev Mat (a b : Nat) : Type := (⟨2, ![a, b]⟩ : Shape).Idx → EReal
abbrev Vect (b : Nat) : Type := (⟨1, ![b]⟩ : Shape).Idx → EReal

/-- The index (row of `i`, `k`). -/
abbrev rowAt {a b n : Nat} (i : (⟨2, ![a, b]⟩ : Shape).Idx) (k : Fin n) : (⟨2, ![a, n]⟩ : Shape).Idx := fun d => match d with
  | ⟨0, _⟩ => ⟨(i 0).val, (i 0).isLt⟩
  | ⟨1, _⟩ => ⟨k.val, k.isLt⟩

/-- The index (`k`, column of `i`). -/
abbrev colAt {a b n : Nat} (i : (⟨2, ![a, b]⟩ : Shape).Idx) (k : Fin n) : (⟨2, ![n, b]⟩ : Shape).Idx := fun d => match d with
  | ⟨0, _⟩ => ⟨k.val, k.isLt⟩
  | ⟨1, _⟩ => ⟨(i 1).val, (i 1).isLt⟩

/-- The column of `i`, as an index of a vector. -/
abbrev chan {a b : Nat} (i : (⟨2, ![a, b]⟩ : Shape).Idx) : (⟨1, ![b]⟩ : Shape).Idx := fun d => match d with
  | ⟨0, _⟩ => ⟨(i 1).val, (i 1).isLt⟩

/-- The row of `i`, as an index of a one-column matrix. -/
abbrev rowOf {a b : Nat} (i : (⟨2, ![a, b]⟩ : Shape).Idx) : (⟨2, ![a, 1]⟩ : Shape).Idx := fun d => match d with
  | ⟨0, _⟩ => ⟨(i 0).val, (i 0).isLt⟩
  | ⟨1, _⟩ => ⟨0, Nat.one_pos⟩

/-- A vector stood up as a one-column matrix: entry (r, 0) is the vector's entry r. -/
def column {a : Nat} (v : Vect a) : Mat a 1 := fun i => v (fun d => match d with
  | ⟨0, _⟩ => ⟨(i 0).val, (i 0).isLt⟩)

/-- The matrix product: entry (r, c) is the sum over k of x(r, k) * w(k, c). -/
def matProd {a n b : Nat} (x : Mat a n) (w : Mat n b) : Mat a b :=
  fun i => ∑ k : Fin n, x (rowAt i k) * w (colAt i k)

/-- The float zero and one, kept as their words. -/
abbrev zeroF : EReal := Ideal.ofBits .f32 0x00000000#32
abbrev oneF : EReal := Ideal.ofBits .f32 0x3F800000#32

/-- Bias, then rectify: max (agg(r, c) + bias(c)) 0. -/
def biasRelu {a b : Nat} (agg : Mat a b) (bias : Vect b) : Mat a b :=
  fun i => max (agg i + bias (chan i)) zeroF

/-- The residual form: prev(r, c) + max (agg(r, c) + bias(c)) 0. -/
def residual {a b : Nat} (prev agg : Mat a b) (bias : Vect b) : Mat a b :=
  fun i => prev i + biasRelu agg bias i

/-- The per-graph mean: sums(g, c) / max (cnt(g, 0)) 1. -/
def meanPool {a b : Nat} (sums : Mat a b) (cnt : Mat a 1) : Mat a b :=
  fun i => Ideal.div (sums i) (max (cnt (rowOf i)) oneF)

/-- An affine layer without rectification: (x w)(r, c) + bias(c). -/
def affine {a n b : Nat} (x : Mat a n) (w : Mat n b) (bias : Vect b) : Mat a b :=
  fun i => matProd x w i + bias (chan i)

/-- The read-out head: mean pooling, two rectified affine layers, one affine layer. -/
def head {g h h1 h2 h3 : Nat} (sums : Mat g h) (cnt : Mat g 1) (w1 : Mat h h1) (b1 : Vect h1) (w2 : Mat h1 h2) (b2 : Vect h2)
    (w3 : Mat h2 h3) (b3 : Vect h3) : Mat g h3 :=
  affine (biasRelu (matProd (biasRelu (matProd (meanPool sums cnt) w1) b1) w2) b2) w3 b3

end Cert.GraphNet

end
-- ==== Proof.LibPlainDot.lean ====
/-
  A plain matrix product's contraction sum, read at an index.

  For the dimension numbers of an `[M, K] × [K, N] → [M, N]` product — the left operand contracted on its second
  axis, the right on its first, no batch axis — the contraction index has one coordinate, ranging over `Fin K`; at the
  result index `(r, c)` and contraction position `k` the left operand is read at `(r, k)` and the right at `(k, c)`.
  So a sum over the contraction index of any function of the two operand indices is the sum over `k : Fin K` of that
  function at `(r, k)` and `(k, c)`. Both a kernel's matrix unit product into a zero accumulator and the host's
  `dot_general` are such sums over the extended reals (of the products of the operands' entries), so this is the one
  re-indexing either needs.
-/
import Idealize.ShloMosaic.PureOps.Dims
import Idealize.ShloMosaic.Lib.ValueIdx

namespace Idealize.ShloMosaic.PlainDot

open Idealize.ShloMosaic Idealize.ShloMosaic.ValueIdx

/-- The left operand's index at result index `(r, c)` and contraction position `k` is `(r, k)`, the right operand's
    `(k, c)`, for any record with the plain product's dimension numbers; `e` is the bijection between the contraction
    index and `Fin K`. -/
theorem plain_idx {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (r : Fin M) (c : Fin N) (k : Fin K) :
    d.lhsIdx (ix2 r c) ((contrEquiv1 d K hr hs).symm k) = ix2 r k
      ∧ d.rhsIdx (ix2 r c) ((contrEquiv1 d K hr hs).symm k) = ix2 k c := by
  constructor
  · funext a
    refine Fin.ext ?_
    match a with
    | ⟨0, _⟩ =>
      show (d.lhsIdx (ix2 r c) ((contrEquiv1 d K hr hs).symm k) 0).val = r.val
      unfold DotDims.lhsIdx
      rw [dif_neg (by rw [h5]; exact List.not_mem_nil), dif_pos (by rw [h3]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 0 _ (by decide) (by simp [h5, h3])
    | ⟨1, _⟩ =>
      show (d.lhsIdx (ix2 r c) ((contrEquiv1 d K hr hs).symm k) 1).val = k.val
      rw [d.lhsIdx_val_of_single h1]
      exact contrEquiv1_symm_val d K hr hs k
  · funext a
    refine Fin.ext ?_
    match a with
    | ⟨0, _⟩ =>
      show (d.rhsIdx (ix2 r c) ((contrEquiv1 d K hr hs).symm k) 0).val = k.val
      rw [d.rhsIdx_val_of_single h2]
      exact contrEquiv1_symm_val d K hr hs k
    | ⟨1, _⟩ =>
      show (d.rhsIdx (ix2 r c) ((contrEquiv1 d K hr hs).symm k) 1).val = c.val
      unfold DotDims.rhsIdx
      rw [dif_neg (by rw [h6]; exact List.not_mem_nil), dif_pos (by rw [h4]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 1 _ (by decide) (by simp [h5, h3, h4])

/-- THE CONTRACTION SUM OF A PLAIN PRODUCT at `(r, c)`: the sum over `k : Fin K` at the operand indices `(r, k)` and
    `(k, c)`, in any commutative additive monoid. -/
theorem plain_sum {β : Type*} [AddCommMonoid β] {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K)
    (f : (⟨2, ![M, K]⟩ : Shape).Idx → (⟨2, ![K, N]⟩ : Shape).Idx → β) (r : Fin M) (c : Fin N) :
    ∑ q : d.contr.Idx, f (d.lhsIdx (ix2 r c) q) (d.rhsIdx (ix2 r c) q) = ∑ k : Fin K, f (ix2 r k) (ix2 k c) := by
  rw [← Equiv.sum_comp (contrEquiv1 d K hr hs).symm]
  refine Finset.sum_congr rfl fun k _ => ?_
  obtain ⟨hl, hr'⟩ := plain_idx d h1 h2 h3 h4 h5 h6 hr hs r c k
  rw [hl, hr']

end Idealize.ShloMosaic.PlainDot
-- ==== Proof.LibRowsTimes.lean ====
/-
  A plain matrix product over the extended reals, as one function of its two operands.

  `rowsTimes x w` is the array whose entry `(r, c)` is the sum over `k` of `x (r, k) · w (k, c)`. Both the matrix unit's
  product into a zero accumulator and the host's `dot_general` ARE this function when their dimension numbers are the plain
  product's (the left operand contracted on its second axis, the right on its first, no batch axis): each is by definition
  the sum, over the contraction index, of the products of the operands' entries at the record's operand indices, and that
  sum is re-indexed by `k : Fin K` (`PlainDot.plain_sum`). Nothing here uses finiteness: the two sides are the same sum of
  the same products, term by term.
-/
import proofs.«124983_j78881369358664_1_alg».proof.Proof.LibPlainDot
import Idealize.ShloMosaic.PureOps.Ideal.Laws

noncomputable section

namespace Idealize.ShloMosaic.RowsTimes

open Idealize.ShloMosaic Idealize.ShloMosaic.ValueIdx

/-- Entry `(r, c)` is the sum over `k` of `x (r, k) · w (k, c)`. -/
def rowsTimes {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem rowsTimes_apply {M K N : Nat} (x : (⟨2, ![M, K]⟩ : Shape).Idx → EReal) (w : (⟨2, ![K, N]⟩ : Shape).Idx → EReal)
    (r : Fin M) (c : Fin N) : rowsTimes x w (ix2 r c) = ∑ k : Fin K, x (ix2 r k) * w (ix2 k c) := rfl

/-- The matrix unit's product into the zero accumulator, at an entry: the plain sum of products. -/
theorem matmul_zero_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) (r : Fin M) (c : Fin N) :
    FloatOps.matmul d prec x w (constant ⟨2, ![M, N]⟩ .f32 0x00000000#32) (ix2 r c)
      = ∑ k : Fin K, x (ix2 r k) * w (ix2 k c) :=
  (Ideal.matmul_constant_zero_apply d prec x w (ix2 r c)).trans
    (PlainDot.plain_sum d h1 h2 h3 h4 h5 h6 hr hs (fun i j => x i * w j) r c)

/-- The host's `dot_general` of a plain product IS `rowsTimes` of its operands. -/
theorem hostDot_eq {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) :
    Host.dotGeneral (F := Ideal) d prec x w = rowsTimes x w := by
  funext i
  obtain ⟨r, c, rfl⟩ : ∃ (r : Fin M) (c : Fin N), i = ix2 r c := ⟨i 0, i 1, eq_ix2 i⟩
  unfold Host.dotGeneral
  rw [Ideal.dotGeneral_apply]
  exact PlainDot.plain_sum d h1 h2 h3 h4 h5 h6 hr hs (fun i j => x i * w j) r c

end Idealize.ShloMosaic.RowsTimes

end
-- ==== Proof.RegionLinear.lean ====
/-
  The three dense launches: each multiplies the node-feature matrix by a weight matrix, in row blocks.

  A launch walks ten grid points. At point t it reads rows 10000 t … 10000 t + 9999 of the [100000, 64] matrix and
  the whole [64, 64] weight, and writes the product of the two blocks into rows 10000 t … 10000 t + 9999 of the
  output. Over the extended reals every operation is exact and a change of float format is the identity, so entry
  (p, q) of the block written is the sum over k of x(p, k) * w(k, q), the product into a zero accumulator adding
  nothing. Row r of a matrix product depends on row r of the left factor only, so each block written is the
  restriction of ONE function of the whole arrays, `matProd` of the matrix and the weight as the launch finds them;
  the ten blocks cover the output, so after the launch the output array is that function. Nothing here needs
  finiteness: both sides are the same sum of the same products.
-/
import proofs.«124983_j78881369358664_1_alg».proof.Proof.Gen.KernelIdeal.Frame
import proofs.«124983_j78881369358664_1_alg».proof.Proof.Spec
import proofs.«124983_j78881369358664_1_alg».proof.Proof.LibRowsTimes
import Idealize.ShloMosaic.Lib.Pipeline.Value

set_option maxRecDepth 16384

noncomputable section

namespace Cert.KernelIdeal.RegionValue

open Cert.KernelIdeal Cert.KernelIdeal.Gen Cert.GraphNet Idealize.ShloMosaic Idealize.ShloMosaic.TcCoe Idealize.SL.Sem
open Idealize.ShloMosaic.ValueIdx
open Idealize.ShloMosaic.Pipeline (Dat)

namespace Linear

/-- The zero offsets of a whole-buffer access, however spelt. -/
theorem zeroOffsets : (![0, 0] : Fin 2 → Nat) = fun _ => 0 := funext fun a => by fin_cases a <;> rfl

/-! ## Launch 0 -/

/-- The body's payload at entry (p, q): the sum over k of x(p, k) * w(k, q). -/
theorem pay0_apply (x : Vec Ideal S10000x64 .f32) (w : Vec Ideal S64x64 .f32) (p : Fin 10000) (q : Fin 64) :
    k0_pay1 (F := Ideal) x w (ix2 p q) = ∑ k : Fin 64, x (ix2 p k) * w (ix2 k q) := by
  unfold k0_pay1
  refine (RowsTimes.matmul_zero_apply dot_S10000x64_S64x64_S10000x64_1_0_0_1_n_n rfl rfl rfl rfl rfl rfl rfl rfl none _ _ p q).trans ?_
  refine Finset.sum_congr rfl fun k _ => ?_
  rw [truncf_apply, truncf_apply, shapeCast_self, shapeCast_self]

/-- The block indices of the three windows at grid point t: the matrix and the output are at row block t,
    the weight at its one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- The matrix's block at point t is rows 10000 t … 10000 t + 9999 of the matrix. -/
theorem iblk0_0_apply (c : Dev nD) (t : Fin cfg0.N) (x : S10000x64.Idx) (i : S100000x64.Idx)
    (h0 : (i 0).val = 10000 * t.val + (x 0).val) (h1 : (i 1).val = (x 1).val) :
    (iblk0 V c 0 t : Vec Ideal S10000x64 .f32) x = (V c main_v41 : S100000x64.Idx → EReal) i := by
  obtain ⟨e0, e1, -⟩ := idx_facts0 t
  unfold iblk0
  rw [View.read_apply]
  show V c main_v41 _ = V c main_v41 _
  congr 1
  funext a
  apply Fin.ext
  match a with
  | ⟨0, _⟩ => show win0_0.index t 0 * 10000 + 1 * (x 0).val = (i 0).val; rw [e0, h0]; omega
  | ⟨1, _⟩ => show win0_0.index t 1 * 64 + 1 * (x 1).val = (i 1).val; rw [e1, h1]; omega

/-- The weight's block at any point is the weight. -/
theorem iblk0_1_apply (c : Dev nD) (t : Fin cfg0.N) (x : S64x64.Idx) (i : S64x64.Idx)
    (h0 : (i 0).val = (x 0).val) (h1 : (i 1).val = (x 1).val) :
    (iblk0 V c 1 t : Vec Ideal S64x64 .f32) x = (V c main_v43 : S64x64.Idx → EReal) i := by
  obtain ⟨-, -, e2, e3, -⟩ := idx_facts0 t
  unfold iblk0
  rw [View.read_apply]
  show V c main_v43 _ = V c main_v43 _
  congr 1
  funext a
  apply Fin.ext
  match a with
  | ⟨0, _⟩ => show win0_1.index t 0 * 64 + 1 * (x 0).val = (i 0).val; rw [e2, h0]; omega
  | ⟨1, _⟩ => show win0_1.index t 1 * 64 + 1 * (x 1).val = (i 1).val; rw [e3, h1]; omega

/-- What point t writes back is block t of the product of the matrix with the weight: row r of the product
    depends on row r of the matrix only, and point t's block of the matrix holds exactly the rows of its
    output block. -/
theorem flushed0_eq (c : Dev nD) (t : Fin cfg0.N) :
    (dat0 (F := Ideal) V c).flushed 2 t
      = ((cfg0.win 2).blk t).view.read (Elt Ideal) (matProd (V c main_v41) (V c main_v43)) := by
  show (cfg0.win 2).cut (grid0.coords t) ((dat0 V c).after 2 t) = _
  rw [after0_2]
  unfold out0_2
  rw [View.canon_unit_zero zeroOffsets]
  simp only [View.ld_unit_zero (S := S10000x64) zeroOffsets, View.ld_unit_zero (S := S64x64) zeroOffsets]
  obtain ⟨-, -, -, -, e4, e5⟩ := idx_facts0 t
  funext j
  obtain ⟨p, q, rfl⟩ : ∃ (p : Fin 10000) (q : Fin 64), j = ix2 p q := ⟨j 0, j 1, eq_ix2 j⟩
  show k0_pay1 (F := Ideal) (iblk0 V c 0 t) (iblk0 V c 1 t) (ix2 p q)
    = matProd (V c main_v41) (V c main_v43) (((cfg0.win 2).blk t).view.emb (ix2 p q))
  refine (pay0_apply (iblk0 V c 0 t) (iblk0 V c 1 t) p q).trans ?_
  unfold matProd
  refine Finset.sum_congr rfl fun k _ => ?_
  congr 1
  · refine iblk0_0_apply V c t (ix2 p k) _ ?_ rfl
    show win0_2.index t 0 * 10000 + 1 * p.val = 10000 * t.val + p.val
    rw [e4]; omega
  · refine iblk0_1_apply V c t (ix2 k q) _ rfl ?_
    show win0_2.index t 1 * 64 + 1 * q.val = q.val
    rw [e5]; omega

/-- Row r of the output lies in the block of point r / 10000. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := N_0
  have ht : (i 0).val / 10000 < grid0.N := by omega
  obtain ⟨-, -, -, -, e4, e5⟩ := idx_facts0 ⟨(i 0).val / 10000, ht⟩
  refine ⟨⟨(i 0).val / 10000, ht⟩, flush0_2 _, ?_⟩
  show i ∈ ((View.whole main_v44).slice (win0_2.rect ⟨(i 0).val / 10000, ht⟩)).set
  rw [View.set_slice_whole, Rect.mem_set_unit]
  intro a
  match a with
  | ⟨0, _⟩ =>
    show win0_2.index ⟨(i 0).val / 10000, ht⟩ 0 * 10000 ≤ (i 0).val
      ∧ (i 0).val < win0_2.index ⟨(i 0).val / 10000, ht⟩ 0 * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ 1 * 64 ≤ (i 1).val
      ∧ (i 1).val < win0_2.index ⟨(i 0).val / 10000, ht⟩ 1 * 64 + 64
    rw [e5]; omega

/-- The output array after the launch is the product of the matrix and the weight as the launch found them. -/
theorem arr0_eq (c : Dev nD) :
    (dat0 (F := Ideal) V c).arrAt 2 cfg0.N = matProd (V c main_v41) (V c main_v43) :=
  (dat0 (F := Ideal) V c).arrAt_eq_of_cover 2 (matProd (V c main_v41) (V c main_v43))
    (fun t _ => flushed0_eq V c t) cover0

end

/-! ## Launch 2 -/

/-- The body's payload at entry (p, q): the sum over k of x(p, k) * w(k, q). -/
theorem pay2_apply (x : Vec Ideal S10000x64 .f32) (w : Vec Ideal S64x64 .f32) (p : Fin 10000) (q : Fin 64) :
    k2_pay1 (F := Ideal) x w (ix2 p q) = ∑ k : Fin 64, x (ix2 p k) * w (ix2 k q) := by
  unfold k2_pay1
  refine (RowsTimes.matmul_zero_apply dot_S10000x64_S64x64_S10000x64_1_0_0_1_n_n rfl rfl rfl rfl rfl rfl rfl rfl none _ _ p q).trans ?_
  refine Finset.sum_congr rfl fun k _ => ?_
  rw [truncf_apply, truncf_apply, shapeCast_self, shapeCast_self]

/-- The block indices of the three windows at grid point t: the matrix and the output are at row block t,
    the weight at its one block. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section
variable (V : (c : Dev nD) → (b : Ref sig .tc) → Buf (Elt Ideal) ((c : Thread nD τ).loc b))

/-- The matrix's block at point t is rows 10000 t … 10000 t + 9999 of the matrix. -/
theorem iblk2_0_apply (c : Dev nD) (t : Fin cfg2.N) (x : S10000x64.Idx) (i : S100000x64.Idx)
    (h0 : (i 0).val = 10000 * t.val + (x 0).val) (h1 : (i 1).val = (x 1).val) :
    (iblk2 V c 0 t : Vec Ideal S10000x64 .f32) x = (V c main_v60 : S100000x64.Idx → EReal) i := by
  obtain ⟨e0, e1, -⟩ := idx_facts2 t
  unfold iblk2
  rw [View.read_apply]
  show V c main_v60 _ = V c main_v60 _
  congr 1
  funext a
  apply Fin.ext
  match a with
  | ⟨0, _⟩ => show win2_0.index t 0 * 10000 + 1 * (x 0).val = (i 0).val; rw [e0, h0]; omega
  | ⟨1, _⟩ => show win2_0.index t 1 * 64 + 1 * (x 1).val = (i 1).val; rw [e1, h1]; omega

/-- The weight's block at any point is the weight. -/
theorem iblk2_1_apply (c : Dev nD) (t : Fin cfg2.N) (x : S64x64.Idx) (i : S64x64.Idx)
    (h0 : (i 0).val = (x 0).val) (h1 : (i 1).val = (x 1).val) :
    (iblk2 V c 1 t : Vec Ideal S64x64 .f32) x = (V c main_v62 : S64x64.Idx → EReal) i := by
  obtain ⟨-, -, e2, e3, -⟩ := idx_facts2 t
  unfold iblk2
  rw [View.read_apply]
  show V c main_v62 _ = V c main_v62 _
  congr 1
  funext a
  apply Fin.ext
  match a with
  | ⟨0, _⟩ => show win2_1.index t 0 * 64 + 1 * (x 0).val = (i 0).val; rw [e2, h0]; omega
  | ⟨1, _⟩ => show win2_1.index t 1 * 64 + 1 * (x 1).val = (i 1).val; rw [e3, h1]; omega

/-- What point t writes back is block t of the product of the matrix with the weight: row r of the product
    depends on row r of the matrix only, and point t's block of the matrix holds exactly the rows of its
    output block. -/
theorem flushed2_eq (c : Dev nD) (t : Fin cfg2.N) :
    (dat2 (F := Ideal) V c).flushed 2 t
      = ((cfg2.win 2).blk t).view.read (Elt Ideal) (matProd (V c main_v60) (V c main_v62)) := by
  show (cfg2.win 2).cut (grid2.coords t) ((dat2 V c).after 2 t) = _
  rw [after2_2]
  unfold out2_2
  rw [View.canon_unit_zero zeroOffsets]
  simp only [View.ld_unit_zero (S := S10000x64) zeroOffsets, View.ld_unit_zero (S := S64x64) zeroOffsets]
  obtain ⟨-, -, -, -, e4, e5⟩ := idx_facts2 t
  funext j
  obtain ⟨p, q, rfl⟩ : ∃ (p : Fin 10000) (q : Fin 64), j = ix2 p q := ⟨j 0, j 1, eq_ix2 j⟩
  show k2_pay1 (F := Ideal) (iblk2 V c 0 t) (iblk2 V c 1 t) (ix2 p q)
    = matProd (V c main_v60) (V c main_v62) (((cfg2.win 2).blk t).view.emb (ix2 p q))
  refine (pay2_apply (iblk2 V c 0 t) (iblk2 V c 1 t) p q).trans ?_
  unfold matProd
  refine Finset.sum_congr rfl fun k _ => ?_
  congr 1
  · refine iblk2_0_apply V c t (ix2 p k) _ ?_ rfl
    show win2_2.index t 0 * 10000 + 1 * p.val = 10000 * t.val + p.val
    rw [e4]; omega
  · refine iblk2_1_apply V c t (ix2 k q) _ rfl ?_
    show win2_2.index t 1 * 64 + 1 * q.val = q.val
    rw [e5]; omega

/-- Row r of the output lies in the block of point r / 10000. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 10 := N_2
  have ht : (i 0).val / 10000 < grid2.N := by omega
  obtain ⟨-, -, -, -, e4, e5⟩ := idx_facts2 ⟨(i 0).val / 10000, ht⟩
  refine ⟨⟨(i 0).val / 10000, ht⟩, flush2_2 _, ?_⟩
  show i ∈ ((View.whole main_v63).slice (win2_2.rect ⟨(i 0).val / 10000, ht⟩)).set
  rw [View.set_slice_whole, Rect.mem_set_unit]
  intro a
  match a with
  | ⟨0, _⟩ =>
    show win2_2.index ⟨(i 0).val / 10000, ht⟩ 0 * 10000 ≤ (i 0).val
      ∧ (i 0).val < win2_2.index ⟨(i 0).val / 10000, ht⟩ 0 * 10000 + 10000
    rw [e4]; show (i 0).val / 10000 * 10000 ≤ (i 0).val ∧ (i 0).val < (i 0).val / 10000 * 10000 + 10000; omega
  | ⟨1, _⟩ =>
    show win2_2.index ⟨(i 0).val / 10000, ht⟩ 1 * 64 ≤ (i 1).val
      ∧ (i 1).val < win2_2.index ⟨(i 0).val / 10000, ht⟩ 1 * 64 + 64
    rw [e5]; omega

/-- The output array after the launch is the product of the matrix and the weight as the launch found them. -/
theorem arr2_eq (c : Dev nD) :
    (dat2 (F := Ideal) V c).arrAt 2 cfg2.N = matProd (V c main_v60) (V c main_v62) :=
  (dat2 (F := Ideal) V c).arrAt_eq_of_cover 2 (matProd (V c main_v60) (V c main_v62))
    (fun t _ => flushed2_eq V c t) cover2

end

/-! ## Launch 4 -/

/-- The body's payload at entry (p, q): the sum over k of x(p, k) * w(k, q). -/
theorem pay4_apply (x : Vec Ideal S10000x64 .f32) (w : Vec Ideal S64x64 .f32) (p : Fin 10000) (q : Fin 64) :
    k4_pay1 (F := Ideal) x w (ix2 p q) = ∑ k : Fin 64, x (ix2 p k) * w (ix2 k q) := by
  unfold k4_pay1
  refine (RowsTimes.matmul_zero_apply dot_S10000x64_S64x64_S10000x64_1_0_0_1_n_n rfl rfl rfl rfl rfl rfl rfl rfl none _ _ p q).trans ?_
  refine Finset.sum_congr rfl fun k _ => ?_
  rw [truncf_apply, truncf_apply, shapeCast_self, shapeCast_self]

/-- The block indices of the three windows at grid point t: the matrix and the output are at row block t,
    the weight at its one block. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

section
variable (V : (c : Dev nD) → (b : Ref sig .tc) → Buf (Elt Ideal) ((c : Thread nD τ).loc b))

/-- The matrix's block at point t is rows 10000 t … 10000 t + 9999 of the matrix. -/
theorem iblk4_0_apply (c : Dev nD) (t : Fin cfg4.N) (x : S10000x64.Idx) (i : S100000x64.Idx)
    (h0 : (i 0).val = 10000 * t.val + (x 0).val) (h1 : (i 1).val = (x 1).val) :
    (iblk4 V c 0 t : Vec Ideal S10000x64 .f32) x = (V c main_v79 : S100000x64.Idx → EReal) i := by
  obtain ⟨e0, e1, -⟩ := idx_facts4 t
  unfold iblk4
  rw [View.read_apply]
  show V c main_v79 _ = V c main_v79 _
  congr 1
  funext a
  apply Fin.ext
  match a with
  | ⟨0, _⟩ => show win4_0.index t 0 * 10000 + 1 * (x 0).val = (i 0).val; rw [e0, h0]; omega
  | ⟨1, _⟩ => show win4_0.index t 1 * 64 + 1 * (x 1).val = (i 1).val; rw [e1, h1]; omega

/-- The weight's block at any point is the weight. -/
theorem iblk4_1_apply (c : Dev nD) (t : Fin cfg4.N) (x : S64x64.Idx) (i : S64x64.Idx)
    (h0 : (i 0).val = (x 0).val) (h1 : (i 1).val = (x 1).val) :
    (iblk4 V c 1 t : Vec Ideal S64x64 .f32) x = (V c main_v81 : S64x64.Idx → EReal) i := by
  obtain ⟨-, -, e2, e3, -⟩ := idx_facts4 t
  unfold iblk4
  rw [View.read_apply]
  show V c main_v81 _ = V c main_v81 _
  congr 1
  funext a
  apply Fin.ext
  match a with
  | ⟨0, _⟩ => show win4_1.index t 0 * 64 + 1 * (x 0).val = (i 0).val; rw [e2, h0]; omega
  | ⟨1, _⟩ => show win4_1.index t 1 * 64 + 1 * (x 1).val = (i 1).val; rw [e3, h1]; omega

/-- What point t writes back is block t of the product of the matrix with the weight: row r of the product
    depends on row r of the matrix only, and point t's block of the matrix holds exactly the rows of its
    output block. -/
theorem flushed4_eq (c : Dev nD) (t : Fin cfg4.N) :
    (dat4 (F := Ideal) V c).flushed 2 t
      = ((cfg4.win 2).blk t).view.read (Elt Ideal) (matProd (V c main_v79) (V c main_v81)) := by
  show (cfg4.win 2).cut (grid4.coords t) ((dat4 V c).after 2 t) = _
  rw [after4_2]
  unfold out4_2
  rw [View.canon_unit_zero zeroOffsets]
  simp only [View.ld_unit_zero (S := S10000x64) zeroOffsets, View.ld_unit_zero (S := S64x64) zeroOffsets]
  obtain ⟨-, -, -, -, e4, e5⟩ := idx_facts4 t
  funext j
  obtain ⟨p, q, rfl⟩ : ∃ (p : Fin 10000) (q : Fin 64), j = ix2 p q := ⟨j 0, j 1, eq_ix2 j⟩
  show k4_pay1 (F := Ideal) (iblk4 V c 0 t) (iblk4 V c 1 t) (ix2 p q)
    = matProd (V c main_v79) (V c main_v81) (((cfg4.win 2).blk t).view.emb (ix2 p q))
  refine (pay4_apply (iblk4 V c 0 t) (iblk4 V c 1 t) p q).trans ?_
  unfold matProd
  refine Finset.sum_congr rfl fun k _ => ?_
  congr 1
  · refine iblk4_0_apply V c t (ix2 p k) _ ?_ rfl
    show win4_2.index t 0 * 10000 + 1 * p.val = 10000 * t.val + p.val
    rw [e4]; omega
  · refine iblk4_1_apply V c t (ix2 k q) _ rfl ?_
    show win4_2.index t 1 * 64 + 1 * q.val = q.val
    rw [e5]; omega

/-- Row r of the output lies in the block of point r / 10000. -/
theorem cover4 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : grid4.N = 10 := N_4
  have ht : (i 0).val / 10000 < grid4.N := by omega
  obtain ⟨-, -, -, -, e4, e5⟩ := idx_facts4 ⟨(i 0).val / 10000, ht⟩
  refine ⟨⟨(i 0).val / 10000, ht⟩, flush4_2 _, ?_⟩
  show i ∈ ((View.whole main_v82).slice (win4_2.rect ⟨(i 0).val / 10000, ht⟩)).set
  rw [View.set_slice_whole, Rect.mem_set_unit]
  intro a
  match a with
  | ⟨0, _⟩ =>
    show win4_2.index ⟨(i 0).val / 10000, ht⟩ 0 * 10000 ≤ (i 0).val
      ∧ (i 0).val < win4_2.index ⟨(i 0).val / 10000, ht⟩ 0 * 10000 + 10000
    rw [e4]; show (i 0).val / 10000 * 10000 ≤ (i 0).val ∧ (i 0).val < (i 0).val / 10000 * 10000 + 10000; omega
  | ⟨1, _⟩ =>
    show win4_2.index ⟨(i 0).val / 10000, ht⟩ 1 * 64 ≤ (i 1).val
      ∧ (i 1).val < win4_2.index ⟨(i 0).val / 10000, ht⟩ 1 * 64 + 64
    rw [e5]; omega

/-- The output array after the launch is the product of the matrix and the weight as the launch found them. -/
theorem arr4_eq (c : Dev nD) :
    (dat4 (F := Ideal) V c).arrAt 2 cfg4.N = matProd (V c main_v79) (V c main_v81) :=
  (dat4 (F := Ideal) V c).arrAt_eq_of_cover 2 (matProd (V c main_v79) (V c main_v81))
    (fun t _ => flushed4_eq V c t) cover4

end

end Linear

/-! ## The three launches' output arrays -/

/-- After launch 0 its output array is the product of its matrix and weight arrays as it found them. -/
theorem linear0 (m : (ℓ : Loc nD τ sig) → Buf (Elt Ideal) ℓ) (ρ : Dev nD → PrngReg) (c : Dev nD) :
    W4 (F := Ideal) m ρ c (Proc.devRef .tc main_v44)
      = matProd (W3 m ρ c (Proc.devRef .tc main_v41)) (W3 m ρ c (Proc.devRef .tc main_v43)) :=
  (W4_arr m ρ c 2).trans (Linear.arr0_eq (V3 m ρ) c)

/-- The same for launch 2. -/
theorem linear2 (m : (ℓ : Loc nD τ sig) → Buf (Elt Ideal) ℓ) (ρ : Dev nD → PrngReg) (c : Dev nD) :
    W8 (F := Ideal) m ρ c (Proc.devRef .tc main_v63)
      = matProd (W7 m ρ c (Proc.devRef .tc main_v60)) (W7 m ρ c (Proc.devRef .tc main_v62)) :=
  (W8_arr m ρ c 2).trans (Linear.arr2_eq (V7 m ρ) c)

/-- The same for launch 4. -/
theorem linear4 (m : (ℓ : Loc nD τ sig) → Buf (Elt Ideal) ℓ) (ρ : Dev nD → PrngReg) (c : Dev nD) :
    W12 (F := Ideal) m ρ c (Proc.devRef .tc main_v82)
      = matProd (W11 m ρ c (Proc.devRef .tc main_v79)) (W11 m ρ c (Proc.devRef .tc main_v81)) :=
  (W12_arr m ρ c 2).trans (Linear.arr4_eq (V11 m ρ) c)

end Cert.KernelIdeal.RegionValue

end
-- ==== Proof.LibPairStack.lean ====
/-
  Casts and broadcasts between a matrix, a stack of its rows, and the flattened stack, read at an index.

  A kernel that scores every pair `(i, j)` of rows builds, from an `[a, c]` and a `[b, c]` matrix, the `[a, b, c]` stack of
  their pairwise row combinations — each matrix gets a unit axis and is broadcast along it —, flattens the pair axes into
  one (`[a·b, c]`: the pair `(i, j)` becomes row `i·b + j`) for a matrix product, and unflattens the result.  Each lemma
  reads one of these re-layouts at an index written by coordinates: a cast keeps the row-major position, a broadcast
  reads the operand at `0` on its unit axes.  Also: a `[1, 1]` array broadcast to a matrix, and the index a reduction
  over the last axis of a rank-3 array sums over.
-/
import Idealize.ShloMosaic.Lib.ValueIdx
import Idealize.ShloMosaic.Lib.Pipeline.Value
import Idealize.ShloMosaic.PureOps.Reduce

namespace Idealize.ShloMosaic.PairStack

open Idealize.ShloMosaic Idealize.ShloMosaic.ValueIdx

variable {α : Type}

/-- An `[a, c]` matrix cast to `[a, 1, c]` reads, at `(i, u, k)`, the matrix at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` stack broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` stack broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, 1, c]` row broadcast to `[a, b, c]` reads, at `(i, j, k)`, the row at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- THE FLATTENING: an `[a, b, c]` stack cast to `[n, c]` reads, at row `r = i·b + j` and column `k`, the stack at `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (r : Fin n) (k : Fin c) (i : Fin a) (j : Fin b)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- THE UNFLATTENING: an `[n, c]` matrix cast to `[a, b, c]` reads, at `(i, j, k)`, the matrix at row `r = i·b + j`, column `k`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-- A `[1, 1]` array broadcast to `[a, b]` reads its one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The source index a reduction over the LAST axis of an `[a, b, c]` array sums over at result index `(i, j)`: `(i, j, k)`. -/
theorem lift_last {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext d; apply Fin.ext
  fin_cases d <;> rfl

end Idealize.ShloMosaic.PairStack
-- ==== Proof.LibColumnBroadcast.lean ====
/-
  A column broadcast along the rows of a matrix, read at an index.

  A vector kept as an `[a, 1]` column (one entry per row) and broadcast to `[a, b]` repeats each row's entry across
  that row: at `(p, c)` the result is the column's entry of row `p`, whatever the column `c`. This is the form a
  per-row scale, bias or divisor takes before it meets an `[a, b]` matrix elementwise.
-/
import Idealize.ShloMosaic.Lib.ValueLayout

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibKeepdimsSum.lean ====
/-
  A row sum kept as a column, read at an index.

  `jnp.sum(x, axis=-1, keepdims=True)` of an `[a, b]` matrix is computed as a sum along the last axis into an `[a]`
  vector, which a shape cast then stands up as an `[a, 1]` column. Over the extended reals the sum from the zero
  accumulator is the plain finite sum of the row, so the column's entry at `(p, 0)` is Σ_k x[p, k].
-/
import Idealize.ShloMosaic.Lib.ValueLayout
import Idealize.ShloMosaic.PureOps.Ideal.Laws

namespace Cert.KeepdimsSum

open Idealize.ShloMosaic Idealize.ShloMosaic.ValueIdx

variable {α : Type}

/-- An `[a]` vector cast to an `[a, 1]` column reads, at `(p, u)`, the vector's entry `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A float sum along the last axis of an `[a, b]` matrix from the zero accumulator, read over the extended reals:
    entry `p` of the result is the finite sum of row `p`. -/
theorem rowSum_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  match c with
  | ⟨0, _⟩ => rfl
  | ⟨1, _⟩ => rfl

/-- The same sum kept as an `[a, 1]` column: its entry at `(p, u)` is the finite sum of row `p`. -/
theorem rowSum_column_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src 0x00000000#32 h hφ hacc) hc (ix2 p u)
      = ∑ k : Fin b, src (ix2 p k) :=
  (shapeCast_a_a1_apply _ hc p u).trans (rowSum_apply src h hφ hacc p)

end Cert.KeepdimsSum
-- ==== Proof.LibChannelRows.lean ====
/-
  Per-channel and per-row vectors met with a matrix or an image, read at an index; and a row's maximum.

  A vector of per-channel parameters (a bias, a mean, a scale) meets an `[m, n]` matrix or an `[a, b, n]` image after
  it is given unit axes in front and broadcast along them: at every row, or pixel, the result reads the vector at the
  channel. A vector of per-row values (a row's maximum, a row's sum) meets an `[a, b]` matrix after it is stood up as an
  `[a, 1]` column and broadcast across the columns: at `(p, c)` the result reads the vector at the row `p`. And over
  the extended reals the maximum along the last axis of an `[a, b]` matrix, taken from the accumulator word of −∞, is
  at row `p` the fold of `max` over the row's entries from that word's value.
-/
import Idealize.ShloMosaic.Lib.ValueLayout
import Idealize.ShloMosaic.PureOps.Ideal.Laws
import proofs.«124983_j78881369358664_1_alg».proof.Proof.LibPairStack
import proofs.«124983_j78881369358664_1_alg».proof.Proof.LibColumnBroadcast
import proofs.«124983_j78881369358664_1_alg».proof.Proof.LibKeepdimsSum

namespace Cert.ChannelRows

open Idealize.ShloMosaic Idealize.ShloMosaic.ValueIdx

variable {α : Type}

/-- An `[a]` vector cast to `[1, 1, a]` reads, at `(u, v, i)`, the vector's entry `i`. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]
    simp)

/-- A per-channel vector given two unit axes and broadcast over an `[a, b, n]` image reads, at every pixel, the
    vector at the channel. -/
theorem channel_over_image_apply {a b n : ℕ} (x : (⟨1, ![n]⟩ : Shape).Idx → α)
    (hc : (⟨1, ![n]⟩ : Shape).ShapeCasts ⟨3, ![1, 1, n]⟩) (hb : (⟨3, ![1, 1, n]⟩ : Shape).Broadcasts ⟨3, ![a, b, n]⟩)
    (i : Fin a) (j : Fin b) (k : Fin n) :
    broadcastTo ⟨3, ![a, b, n]⟩ (shapeCast ⟨3, ![1, 1, n]⟩ x hc) hb (ix3 i j k) = x (ix1 k) :=
  (PairStack.broadcastTo_11c_abc_apply _ hb i j k).trans (shapeCast_a_11a_apply x hc 0 0 k)

/-- A `[1, 1, n]` row broadcast over an `[a, b, n]` image, when the row's entries are known. -/
theorem row_over_image_apply {a b n : ℕ} (v : (⟨3, ![1, 1, n]⟩ : Shape).Idx → α)
    (hb : (⟨3, ![1, 1, n]⟩ : Shape).Broadcasts ⟨3, ![a, b, n]⟩) (i : Fin a) (j : Fin b) (k : Fin n) :
    broadcastTo ⟨3, ![a, b, n]⟩ v hb (ix3 i j k) = v (ix3 (0 : Fin 1) (0 : Fin 1) k) :=
  PairStack.broadcastTo_11c_abc_apply v hb i j k

/-- A per-channel vector given one unit axis and broadcast down the rows of an `[m, n]` matrix reads, at every row,
    the vector at the column. -/
theorem channel_over_rows_apply {m n : ℕ} (x : (⟨1, ![n]⟩ : Shape).Idx → α)
    (hc : (⟨1, ![n]⟩ : Shape).ShapeCasts ⟨2, ![1, n]⟩) (hb : (⟨2, ![1, n]⟩ : Shape).Broadcasts ⟨2, ![m, n]⟩)
    (p : Fin m) (c : Fin n) :
    broadcastTo ⟨2, ![m, n]⟩ (shapeCast ⟨2, ![1, n]⟩ x hc) hb (ix2 p c) = x (ix1 c) :=
  (broadcastTo_1b_ab_apply _ hb p c).trans (shapeCast_a_1a_apply x hc 0 c)

/-- A per-row vector stood up as a column and broadcast across the columns of an `[a, b]` matrix reads, at `(p, c)`,
    the vector at the row. -/
theorem row_value_over_columns_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (Cert.KeepdimsSum.shapeCast_a_a1_apply x hc p 0)

/-- Over the extended reals, the maximum along the last axis of an `[a, b]` matrix from the accumulator word of −∞:
    entry `p` is the fold of `max`, from that word's value, over the entries of row `p`. -/
theorem rowMax_apply {a b : ℕ} (src : FVec Ideal (⟨2, ![a, b]⟩ : Shape) .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  refine congrArg (fun g : Fin b → EReal => (Finset.univ : Finset (Fin b)).fold max (Ideal.ofBits .f32 0xFF800000#32) g)
    (funext fun k => congrArg src (funext fun c => Fin.ext ?_))
  match c with
  | ⟨0, _⟩ => rfl
  | ⟨1, _⟩ => rfl

end Cert.ChannelRows
-- ==== Proof.RegionCombine.lean ====
/-
  The three combine launches of the graph network, each read as ONE function of its whole operand arrays.

  A combine launch walks the node-feature matrix in ten blocks of 10000 rows.  On each block it adds the bias
  vector to every row of the aggregate, rectifies, and (in the residual form) adds the previous features.
  Entry (r, c) of the result depends only on entry (r, c) of the matrix operands and on entry c of the bias,
  so the ten blocks are the restrictions of one whole-array function, and since the blocks tile the rows the
  output array ends holding that function:
    first launch       max (agg(r, c) + bias(c)) 0
    residual launches  prev(r, c) + max (agg(r, c) + bias(c)) 0.
-/
import proofs.«124983_j78881369358664_1_alg».proof.Proof.Gen.KernelIdeal.Frame
import proofs.«124983_j78881369358664_1_alg».proof.Proof.Spec
import proofs.«124983_j78881369358664_1_alg».proof.Proof.LibChannelRows
import Idealize.ShloMosaic.Lib.Pipeline.Value
import Idealize.ShloMosaic.Lib.ValueIdx

set_option maxRecDepth 16384

noncomputable section

namespace Cert.KernelIdeal.RegionValue

open Cert.KernelIdeal Cert.KernelIdeal.Gen Cert.GraphNet Idealize.ShloMosaic Idealize.ShloMosaic.TcCoe Idealize.SL.Sem
open Idealize.ShloMosaic.ValueIdx
open Idealize.ShloMosaic.Pipeline (Dat)

/-! ## Zero offsets, and the column of a matrix index -/

theorem zeros1 : (![0] : Fin 1 → Nat) = fun _ => 0 := funext fun a => by fin_cases a; rfl
theorem zeros2 : (![0, 0] : Fin 2 → Nat) = fun _ => 0 := funext fun a => by fin_cases a <;> rfl

/-- The column of a matrix index, as a vector index, is the index built from that coordinate. -/
theorem chan_eq_ix1 {a b : Nat} (i : (⟨2, ![a, b]⟩ : Shape).Idx) : chan i = ix1 (i 1) :=
  funext fun d => match d with | ⟨0, _⟩ => rfl

/-! ## The block bodies at an index -/

/-- The first combine on a block: entry (p, q) is max (agg(p, q) + bias(q)) 0. -/
theorem firstBlock_apply (bias : Vec Ideal S64 .f32) (agg : Vec Ideal S10000x64 .f32) (p : Fin 10000) (q : Fin 64) :
    k1_pay1 (F := Ideal) bias agg (ix2 p q) = max (agg (ix2 p q) + bias (ix1 q)) zeroF := by
  unfold k1_pay1
  rw [maximumf_apply, addf_apply, broadcast_apply, shapeCast_self, shapeCast_self,
    Cert.ChannelRows.channel_over_rows_apply]
  rfl

/-- What the first combine leaves in the output block, from the aggregate's block and the bias. -/
theorem firstOut_eq (agg : Vec Ideal S10000x64 .f32) (bias : Vec Ideal S64 .f32) :
    out1_2 (F := Ideal) agg bias = k1_pay1 bias agg := by
  unfold out1_2
  rw [View.canon_unit_zero zeros2]
  simp only [View.ld_unit_zero (S := S10000x64) zeros2, View.ld_unit_zero (S := S64) zeros1]

/-! ## The first combine launch -/

section First

variable (V : (c : Dev nD) → (b : Ref sig .tc) → Buf (Elt Ideal) ((c : Thread nD τ).loc b))

/-- The block index maps, decided over the ten points: the aggregate's block moves with the output's, which is
    at row block `t`, column block 0; the bias is always its one block. -/
theorem firstIdx : ∀ t : Fin cfg1.N, win1_2.index t (0 : Fin 2) = t.val ∧ win1_2.index t (1 : Fin 2) = 0
    ∧ win1_0.index t (0 : Fin 2) = t.val ∧ win1_0.index t (1 : Fin 2) = 0
    ∧ win1_1.index t (0 : Fin 1) = 0 :=
  (by decide +kernel : ∀ t : Fin grid1.N, _)

/-- What point `t` writes back is block `t` of the whole-array function. -/
theorem firstFlushed (c : Dev nD) (t : Fin cfg1.N) :
    (dat1 (F := Ideal) V c).flushed 2 t
      = ((cfg1.win 2).blk t).view.read (Elt Ideal) (biasRelu (a := 100000) (b := 64) (V c main_v57) (V c main_v59)) := by
  show (cfg1.win 2).cut (grid1.coords t) ((dat1 V c).after 2 t) = _
  rw [after1_2, firstOut_eq]
  obtain ⟨e0, e1, e2, e3, e4⟩ := firstIdx t
  refine funext fun (j : S10000x64.Idx) => ?_
  obtain ⟨p, q, rfl⟩ : ∃ (p : Fin 10000) (q : Fin 64), j = ix2 p q := ⟨j 0, j 1, eq_ix2 j⟩
  refine (firstBlock_apply _ _ p q).trans ?_
  let A : Mat 100000 64 := V c main_v57
  let B : Vect 64 := V c main_v59
  show max (A (((cfg1.win 0).blk t).view.emb (ix2 p q)) + B (((cfg1.win 1).blk t).view.emb (ix1 q))) zeroF
    = max (A (((cfg1.win 2).blk t).view.emb (ix2 p q)) + B (chan (((cfg1.win 2).blk t).view.emb (ix2 p q)))) zeroF
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 64 + 1 * q.val = win1_2.index t (1 : Fin 2) * 64 + 1 * q.val; omega
  have h1 : ((cfg1.win 1).blk t).view.emb (ix1 q) = chan (((cfg1.win 2).blk t).view.emb (ix2 p q)) := by
    funext a; apply Fin.ext
    match a with
    | ⟨0, _⟩ => show win1_1.index t (0 : Fin 1) * 64 + 1 * q.val = win1_2.index t (1 : Fin 2) * 64 + 1 * q.val; omega
  rw [h0, h1]

/-- An index of the array is in point `t`'s block iff each coordinate is in the block's range on its axis. -/
theorem firstMem (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v60).slice (win1_2.rect t)).set ↔ _
  rw [View.set_slice_whole, Rect.mem_set_unit]
  exact Iff.rfl

/-- The ten row blocks cover the array: row `r` lies in the block of point `r / 10000`. -/
theorem firstCover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : grid1.N = 10 := N_1
  let t : Fin cfg1.N := ⟨(i 0).val / 10000, by show (i 0).val / 10000 < grid1.N; omega⟩
  obtain ⟨e0, e1, -, -, -⟩ := firstIdx t
  have ht : t.val = (i 0).val / 10000 := rfl
  refine ⟨t, flush1_2 t, ?_⟩
  rw [firstMem]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- After the launch the output array is bias-then-rectify of the aggregate and bias arrays as the launch found them. -/
theorem firstArray (c : Dev nD) :
    (dat1 (F := Ideal) V c).arrAt 2 cfg1.N = biasRelu (a := 100000) (b := 64) (V c main_v57) (V c main_v59) :=
  (dat1 (F := Ideal) V c).arrAt_eq_of_cover 2 _ (fun t _ => firstFlushed V c t) firstCover

end First

/-! ## The first residual combine launch -/

/-- The residual combine on a block: entry (p, q) is prev(p, q) + max (agg(p, q) + bias(q)) 0. -/
theorem residBlock3_apply (bias : Vec Ideal S64 .f32) (agg prev : Vec Ideal S10000x64 .f32) (p : Fin 10000) (q : Fin 64) :
    k3_pay1 (F := Ideal) bias agg prev (ix2 p q) = prev (ix2 p q) + max (agg (ix2 p q) + bias (ix1 q)) zeroF := by
  unfold k3_pay1
  rw [addf_apply, maximumf_apply, addf_apply, broadcast_apply, shapeCast_self, shapeCast_self, shapeCast_self,
    Cert.ChannelRows.channel_over_rows_apply]
  rfl

/-- What the residual combine leaves in the output block, from the blocks of the aggregate, the bias and the
    previous features. -/
theorem residOut3_eq (agg : Vec Ideal S10000x64 .f32) (bias : Vec Ideal S64 .f32) (prev : Vec Ideal S10000x64 .f32) :
    out3_3 (F := Ideal) agg bias prev = k3_pay1 bias agg prev := by
  unfold out3_3
  rw [View.canon_unit_zero zeros2]
  simp only [View.ld_unit_zero (S := S10000x64) zeros2, View.ld_unit_zero (S := S64) zeros1]

section Residual3

variable (V : (c : Dev nD) → (b : Ref sig .tc) → Buf (Elt Ideal) ((c : Thread nD τ).loc b))

/-- The block index maps, decided over the ten points: the aggregate's and the previous features' blocks move
    with the output's, which is at row block `t`, column block 0; the bias is always its one block. -/
theorem residIdx3 : ∀ t : Fin cfg3.N, win3_3.index t (0 : Fin 2) = t.val ∧ win3_3.index t (1 : Fin 2) = 0
    ∧ win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- What point `t` writes back is block `t` of the whole-array function. -/
theorem residFlushed3 (c : Dev nD) (t : Fin cfg3.N) :
    (dat3 (F := Ideal) V c).flushed 3 t
      = ((cfg3.win 3).blk t).view.read (Elt Ideal)
          (residual (a := 100000) (b := 64) (V c main_v60) (V c main_v76) (V c main_v78)) := by
  show (cfg3.win 3).cut (grid3.coords t) ((dat3 V c).after 3 t) = _
  rw [after3_3, residOut3_eq]
  obtain ⟨e0, e1, e2, e3, e4, e5, e6⟩ := residIdx3 t
  refine funext fun (j : S10000x64.Idx) => ?_
  obtain ⟨p, q, rfl⟩ : ∃ (p : Fin 10000) (q : Fin 64), j = ix2 p q := ⟨j 0, j 1, eq_ix2 j⟩
  refine (residBlock3_apply _ _ _ p q).trans ?_
  let P : Mat 100000 64 := V c main_v60
  let A : Mat 100000 64 := V c main_v76
  let B : Vect 64 := V c main_v78
  show P (((cfg3.win 2).blk t).view.emb (ix2 p q))
      + max (A (((cfg3.win 0).blk t).view.emb (ix2 p q)) + B (((cfg3.win 1).blk t).view.emb (ix1 q))) zeroF
    = P (((cfg3.win 3).blk t).view.emb (ix2 p q))
      + max (A (((cfg3.win 3).blk t).view.emb (ix2 p q)) + B (chan (((cfg3.win 3).blk t).view.emb (ix2 p q)))) zeroF
  have h0 : ((cfg3.win 0).blk t).view.emb (ix2 p q) = ((cfg3.win 3).blk t).view.emb (ix2 p q) := by
    funext a; apply Fin.ext
    match a with
    | ⟨0, _⟩ => show win3_0.index t (0 : Fin 2) * 10000 + 1 * p.val = win3_3.index t (0 : Fin 2) * 10000 + 1 * p.val; omega
    | ⟨1, _⟩ => show win3_0.index t (1 : Fin 2) * 64 + 1 * q.val = win3_3.index t (1 : Fin 2) * 64 + 1 * q.val; omega
  have h2 : ((cfg3.win 2).blk t).view.emb (ix2 p q) = ((cfg3.win 3).blk t).view.emb (ix2 p q) := by
    funext a; apply Fin.ext
    match a with
    | ⟨0, _⟩ => show win3_2.index t (0 : Fin 2) * 10000 + 1 * p.val = win3_3.index t (0 : Fin 2) * 10000 + 1 * p.val; omega
    | ⟨1, _⟩ => show win3_2.index t (1 : Fin 2) * 64 + 1 * q.val = win3_3.index t (1 : Fin 2) * 64 + 1 * q.val; omega
  have h1 : ((cfg3.win 1).blk t).view.emb (ix1 q) = chan (((cfg3.win 3).blk t).view.emb (ix2 p q)) := by
    funext a; apply Fin.ext
    match a with
    | ⟨0, _⟩ => show win3_1.index t (0 : Fin 1) * 64 + 1 * q.val = win3_3.index t (1 : Fin 2) * 64 + 1 * q.val; omega
  rw [h0, h1, h2]

/-- An index of the array is in point `t`'s block iff each coordinate is in the block's range on its axis. -/
theorem residMem3 (t : Fin cfg3.N) (i : S100000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole main_v79).slice (win3_3.rect t)).set ↔ _
  rw [View.set_slice_whole, Rect.mem_set_unit]
  exact Iff.rfl

/-- The ten row blocks cover the array: row `r` lies in the block of point `r / 10000`. -/
theorem residCover3 (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hN : grid3.N = 10 := N_3
  let t : Fin cfg3.N := ⟨(i 0).val / 10000, by show (i 0).val / 10000 < grid3.N; omega⟩
  obtain ⟨e0, e1, -, -, -, -, -⟩ := residIdx3 t
  have ht : t.val = (i 0).val / 10000 := rfl
  refine ⟨t, flush3_3 t, ?_⟩
  rw [residMem3]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 64 ≤ (i 1).val ∧ (i 1).val < win3_3.index t (1 : Fin 2) * 64 + 64; omega

/-- After the launch the output array is the residual form of the previous-feature, aggregate and bias arrays as the
    launch found them. -/
theorem residArray3 (c : Dev nD) :
    (dat3 (F := Ideal) V c).arrAt 3 cfg3.N
      = residual (a := 100000) (b := 64) (V c main_v60) (V c main_v76) (V c main_v78) :=
  (dat3 (F := Ideal) V c).arrAt_eq_of_cover 3 _ (fun t _ => residFlushed3 V c t) residCover3

end Residual3

/-! ## The second residual combine launch -/

/-- The residual combine on a block: entry (p, q) is prev(p, q) + max (agg(p, q) + bias(q)) 0. -/
theorem residBlock5_apply (bias : Vec Ideal S64 .f32) (agg prev : Vec Ideal S10000x64 .f32) (p : Fin 10000) (q : Fin 64) :
    k5_pay1 (F := Ideal) bias agg prev (ix2 p q) = prev (ix2 p q) + max (agg (ix2 p q) + bias (ix1 q)) zeroF := by
  unfold k5_pay1
  rw [addf_apply, maximumf_apply, addf_apply, broadcast_apply, shapeCast_self, shapeCast_self, shapeCast_self,
    Cert.ChannelRows.channel_over_rows_apply]
  rfl

/-- What the residual combine leaves in the output block, from the blocks of the aggregate, the bias and the
    previous features. -/
theorem residOut5_eq (agg : Vec Ideal S10000x64 .f32) (bias : Vec Ideal S64 .f32) (prev : Vec Ideal S10000x64 .f32) :
    out5_3 (F := Ideal) agg bias prev = k5_pay1 bias agg prev := by
  unfold out5_3
  rw [View.canon_unit_zero zeros2]
  simp only [View.ld_unit_zero (S := S10000x64) zeros2, View.ld_unit_zero (S := S64) zeros1]

section Residual5

variable (V : (c : Dev nD) → (b : Ref sig .tc) → Buf (Elt Ideal) ((c : Thread nD τ).loc b))

/-- The block index maps, decided over the ten points: the aggregate's and the previous features' blocks move
    with the output's, which is at row block `t`, column block 0; the bias is always its one block. -/
theorem residIdx5 : ∀ t : Fin cfg5.N, win5_3.index t (0 : Fin 2) = t.val ∧ win5_3.index t (1 : Fin 2) = 0
    ∧ win5_0.index t (0 : Fin 2) = t.val ∧ win5_0.index t (1 : Fin 2) = 0
    ∧ win5_1.index t (0 : Fin 1) = 0
    ∧ win5_2.index t (0 : Fin 2) = t.val ∧ win5_2.index t (1 : Fin 2) = 0 :=
  (by decide +kernel : ∀ t : Fin grid5.N, _)

/-- What point `t` writes back is block `t` of the whole-array function. -/
theorem residFlushed5 (c : Dev nD) (t : Fin cfg5.N) :
    (dat5 (F := Ideal) V c).flushed 3 t
      = ((cfg5.win 3).blk t).view.read (Elt Ideal)
          (residual (a := 100000) (b := 64) (V c main_v79) (V c main_v95) (V c main_v97)) := by
  show (cfg5.win 3).cut (grid5.coords t) ((dat5 V c).after 3 t) = _
  rw [after5_3, residOut5_eq]
  obtain ⟨e0, e1, e2, e3, e4, e5, e6⟩ := residIdx5 t
  refine funext fun (j : S10000x64.Idx) => ?_
  obtain ⟨p, q, rfl⟩ : ∃ (p : Fin 10000) (q : Fin 64), j = ix2 p q := ⟨j 0, j 1, eq_ix2 j⟩
  refine (residBlock5_apply _ _ _ p q).trans ?_
  let P : Mat 100000 64 := V c main_v79
  let A : Mat 100000 64 := V c main_v95
  let B : Vect 64 := V c main_v97
  show P (((cfg5.win 2).blk t).view.emb (ix2 p q))
      + max (A (((cfg5.win 0).blk t).view.emb (ix2 p q)) + B (((cfg5.win 1).blk t).view.emb (ix1 q))) zeroF
    = P (((cfg5.win 3).blk t).view.emb (ix2 p q))
      + max (A (((cfg5.win 3).blk t).view.emb (ix2 p q)) + B (chan (((cfg5.win 3).blk t).view.emb (ix2 p q)))) zeroF
  have h0 : ((cfg5.win 0).blk t).view.emb (ix2 p q) = ((cfg5.win 3).blk t).view.emb (ix2 p q) := by
    funext a; apply Fin.ext
    match a with
    | ⟨0, _⟩ => show win5_0.index t (0 : Fin 2) * 10000 + 1 * p.val = win5_3.index t (0 : Fin 2) * 10000 + 1 * p.val; omega
    | ⟨1, _⟩ => show win5_0.index t (1 : Fin 2) * 64 + 1 * q.val = win5_3.index t (1 : Fin 2) * 64 + 1 * q.val; omega
  have h2 : ((cfg5.win 2).blk t).view.emb (ix2 p q) = ((cfg5.win 3).blk t).view.emb (ix2 p q) := by
    funext a; apply Fin.ext
    match a with
    | ⟨0, _⟩ => show win5_2.index t (0 : Fin 2) * 10000 + 1 * p.val = win5_3.index t (0 : Fin 2) * 10000 + 1 * p.val; omega
    | ⟨1, _⟩ => show win5_2.index t (1 : Fin 2) * 64 + 1 * q.val = win5_3.index t (1 : Fin 2) * 64 + 1 * q.val; omega
  have h1 : ((cfg5.win 1).blk t).view.emb (ix1 q) = chan (((cfg5.win 3).blk t).view.emb (ix2 p q)) := by
    funext a; apply Fin.ext
    match a with
    | ⟨0, _⟩ => show win5_1.index t (0 : Fin 1) * 64 + 1 * q.val = win5_3.index t (1 : Fin 2) * 64 + 1 * q.val; omega
  rw [h0, h1, h2]

/-- An index of the array is in point `t`'s block iff each coordinate is in the block's range on its axis. -/
theorem residMem5 (t : Fin cfg5.N) (i : S100000x64.Idx) :
    i ∈ ((cfg5.win 3).blk t).view.set ↔ ∀ a : Fin 2, win5_3.index t a * S10000x64.size a ≤ (i a).val ∧ (i a).val < win5_3.index t a * S10000x64.size a + S10000x64.size a := by
  show i ∈ ((View.whole main_v98).slice (win5_3.rect t)).set ↔ _
  rw [View.set_slice_whole, Rect.mem_set_unit]
  exact Iff.rfl

/-- The ten row blocks cover the array: row `r` lies in the block of point `r / 10000`. -/
theorem residCover5 (i : S100000x64.Idx) :
    ∃ t : Fin cfg5.N, (cfg5.win 3).flush t = true ∧ i ∈ ((cfg5.win 3).blk t).view.set := by
  have hi0 : (i 0).val < 100000 := (i 0).isLt
  have hi1 : (i 1).val < 64 := (i 1).isLt
  have hN : grid5.N = 10 := N_5
  let t : Fin cfg5.N := ⟨(i 0).val / 10000, by show (i 0).val / 10000 < grid5.N; omega⟩
  obtain ⟨e0, e1, -, -, -, -, -⟩ := residIdx5 t
  have ht : t.val = (i 0).val / 10000 := rfl
  refine ⟨t, flush5_3 t, ?_⟩
  rw [residMem5]
  intro a
  match a with
  | ⟨0, _⟩ => show win5_3.index t (0 : Fin 2) * 10000 ≤ (i 0).val ∧ (i 0).val < win5_3.index t (0 : Fin 2) * 10000 + 10000; omega
  | ⟨1, _⟩ => show win5_3.index t (1 : Fin 2) * 64 ≤ (i 1).val ∧ (i 1).val < win5_3.index t (1 : Fin 2) * 64 + 64; omega

/-- After the launch the output array is the residual form of the previous-feature, aggregate and bias arrays as the
    launch found them. -/
theorem residArray5 (c : Dev nD) :
    (dat5 (F := Ideal) V c).arrAt 3 cfg5.N
      = residual (a := 100000) (b := 64) (V c main_v79) (V c main_v95) (V c main_v97) :=
  (dat5 (F := Ideal) V c).arrAt_eq_of_cover 3 _ (fun t _ => residFlushed5 V c t) residCover5

end Residual5

/-! ## The three launches inside the run -/

section Run

variable (m : (ℓ : Loc nD τ sig) → Buf (Elt Ideal) ℓ) (ρ : Dev nD → PrngReg) (c : Dev nD)

/-- The first combine launch: its output array is bias-then-rectify of the aggregate and the bias it was launched on. -/
theorem combine1 : W6 (F := Ideal) m ρ c (Proc.devRef .tc main_v60)
    = biasRelu (W5 m ρ c (Proc.devRef .tc main_v57)) (W5 m ρ c (Proc.devRef .tc main_v59)) :=
  (W6_arr m ρ c 2).trans (firstArray (V5 m ρ) c)

/-- The first residual launch: its output array is the residual form of the previous features, the aggregate and the
    bias it was launched on. -/
theorem combine3 : W10 (F := Ideal) m ρ c (Proc.devRef .tc main_v79)
    = residual (W9 m ρ c (Proc.devRef .tc main_v60)) (W9 m ρ c (Proc.devRef .tc main_v76)) (W9 m ρ c (Proc.devRef .tc main_v78)) :=
  (W10_arr m ρ c 3).trans (residArray3 (V9 m ρ) c)

/-- The second residual launch, likewise. -/
theorem combine5 : W14 (F := Ideal) m ρ c (Proc.devRef .tc main_v98)
    = residual (W13 m ρ c (Proc.devRef .tc main_v79)) (W13 m ρ c (Proc.devRef .tc main_v95)) (W13 m ρ c (Proc.devRef .tc main_v97)) :=
  (W14_arr m ρ c 3).trans (residArray5 (V13 m ρ) c)

end Run

end Cert.KernelIdeal.RegionValue

end
-- ==== Proof.RegionHead.lean ====
/-
  The read-out head of the graph network, as the sixth launch computes it.

  The launch has ONE grid point and every window is whole: the per-graph feature sums [2048, 64], the per-graph node
  counts [2048, 1], three weight matrices with their bias vectors, and the output column [2048, 1].  The body divides
  each row of sums by max (count, 1), applies two affine layers each followed by max (·, 0), and a last affine layer.
  Over the extended reals a change of float format is the identity and a matrix product into the zero accumulator is
  the plain sum of products, so the body's value is, index by index, the specification's "head".  Since the one point's
  blocks are the whole arrays, the output array after the launch is that function of the input arrays as the launch
  found them.
-/
import proofs.«124983_j78881369358664_1_alg».proof.Proof.Gen.KernelIdeal.Frame
import proofs.«124983_j78881369358664_1_alg».proof.Proof.Spec
import proofs.«124983_j78881369358664_1_alg».proof.Proof.LibRowsTimes
import proofs.«124983_j78881369358664_1_alg».proof.Proof.LibChannelRows
import proofs.«124983_j78881369358664_1_alg».proof.Proof.LibColumnBroadcast
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen Cert.GraphNet Idealize.ShloMosaic Idealize.ShloMosaic.TcCoe Idealize.SL.Sem
open Idealize.ShloMosaic.ValueIdx
open Idealize.ShloMosaic.Pipeline (Dat)

namespace Head

/-! ## The specification's indices, by coordinates -/

theorem rowAt_ix2 {a b n : ℕ} (p : Fin a) (q : Fin b) (k : Fin n) :
    (rowAt (ix2 p q : (⟨2, ![a, b]⟩ : Shape).Idx) k : (⟨2, ![a, n]⟩ : Shape).Idx) = ix2 p k :=
  funext fun d => match d with | ⟨0, _⟩ => rfl | ⟨1, _⟩ => rfl

theorem colAt_ix2 {a b n : ℕ} (p : Fin a) (q : Fin b) (k : Fin n) :
    (colAt (ix2 p q : (⟨2, ![a, b]⟩ : Shape).Idx) k : (⟨2, ![n, b]⟩ : Shape).Idx) = ix2 k q :=
  funext fun d => match d with | ⟨0, _⟩ => rfl | ⟨1, _⟩ => rfl

theorem chan_ix2 {a b : ℕ} (p : Fin a) (q : Fin b) :
    (chan (ix2 p q : (⟨2, ![a, b]⟩ : Shape).Idx) : (⟨1, ![b]⟩ : Shape).Idx) = ix1 q :=
  funext fun d => match d with | ⟨0, _⟩ => rfl

theorem rowOf_ix2 {a b : ℕ} (p : Fin a) (q : Fin b) :
    (rowOf (ix2 p q : (⟨2, ![a, b]⟩ : Shape).Idx) : (⟨2, ![a, 1]⟩ : Shape).Idx) = ix2 p (0 : Fin 1) :=
  funext fun d => match d with | ⟨0, _⟩ => rfl | ⟨1, _⟩ => rfl

/-- The matrix product at (p, q): the sum over k of x(p, k) · w(k, q). -/
theorem matProd_ix2 {a n b : ℕ} (x : Mat a n) (w : Mat n b) (p : Fin a) (q : Fin b) :
    matProd x w (ix2 p q) = ∑ k : Fin n, x (ix2 p k) * w (ix2 k q) := by
  unfold matProd
  simp only [rowAt_ix2, colAt_ix2]

/-! ## The body's layers, each as one function of its operands -/

/-- Mean pooling: each row of sums divided by max (count, 1), the count column spread across the row. -/
theorem meanLayer_eq {a b : ℕ} (sums : FVec Ideal ⟨2, ![a, b]⟩ .f32) (cnt : FVec Ideal ⟨2, ![a, 1]⟩ .f32)
    (hb : (⟨2, ![a, 1]⟩ : Shape).Broadcasts ⟨2, ![a, b]⟩) :
    divf sums (broadcastTo ⟨2, ![a, b]⟩
        (maximumf cnt (broadcast ⟨2, ![a, 1]⟩ (Scalar.ofBits (F := Ideal) .f32 0x3F800000#32))) hb)
      = meanPool sums cnt := by
  funext j
  obtain ⟨p, q, rfl⟩ : ∃ (p : Fin a) (q : Fin b), j = ix2 p q := ⟨j 0, j 1, eq_ix2 j⟩
  rw [divf_apply, broadcastTo_a1_ab_apply, maximumf_apply, broadcast_apply]
  unfold meanPool
  rw [rowOf_ix2]
  rfl

/-- A rectified affine layer: the product into the zero accumulator, plus the bias row, then max with zero. -/
theorem reluLayer_eq {a n b : ℕ} (d : DotDims ⟨2, ![a, n]⟩ ⟨2, ![n, b]⟩ ⟨2, ![a, b]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = n)
    (x : FVec Ideal ⟨2, ![a, n]⟩ .f32) (w : FVec Ideal ⟨2, ![n, b]⟩ .f32) (bias : FVec Ideal ⟨1, ![b]⟩ .f32)
    (ht : FTy.bits .bf16 < FTy.bits .f32)
    (hc : (⟨1, ![b]⟩ : Shape).ShapeCasts ⟨2, ![1, b]⟩) (hb : (⟨2, ![1, b]⟩ : Shape).Broadcasts ⟨2, ![a, b]⟩) :
    maximumf (addf (matmul d none (truncf .bf16 x ht) (truncf .bf16 w ht) (constant ⟨2, ![a, b]⟩ .f32 0x00000000#32))
          (broadcastTo ⟨2, ![a, b]⟩ (shapeCast ⟨2, ![1, b]⟩ bias hc) hb))
        (broadcast ⟨2, ![a, b]⟩ (Scalar.ofBits (F := Ideal) .f32 0x00000000#32))
      = biasRelu (matProd x w) bias := by
  funext j
  obtain ⟨p, q, rfl⟩ : ∃ (p : Fin a) (q : Fin b), j = ix2 p q := ⟨j 0, j 1, eq_ix2 j⟩
  rw [maximumf_apply, addf_apply, broadcast_apply, Cert.ChannelRows.channel_over_rows_apply]
  unfold biasRelu
  rw [matProd_ix2, chan_ix2]
  rw [show matmul d none (truncf .bf16 x ht) (truncf .bf16 w ht) (constant ⟨2, ![a, b]⟩ .f32 0x00000000#32) (ix2 p q)
        = ∑ k : Fin n, x (ix2 p k) * w (ix2 k q) from
      RowsTimes.matmul_zero_apply d h1 h2 h3 h4 h5 h6 hr hs none (truncf .bf16 x ht) (truncf .bf16 w ht) p q]
  rfl

/-- The last affine layer: the product into the zero accumulator, plus the bias row. -/
theorem affineLayer_eq {a n b : ℕ} (d : DotDims ⟨2, ![a, n]⟩ ⟨2, ![n, b]⟩ ⟨2, ![a, b]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = n)
    (x : FVec Ideal ⟨2, ![a, n]⟩ .f32) (w : FVec Ideal ⟨2, ![n, b]⟩ .f32) (bias : FVec Ideal ⟨1, ![b]⟩ .f32)
    (ht : FTy.bits .bf16 < FTy.bits .f32)
    (hc : (⟨1, ![b]⟩ : Shape).ShapeCasts ⟨2, ![1, b]⟩) (hb : (⟨2, ![1, b]⟩ : Shape).Broadcasts ⟨2, ![a, b]⟩) :
    addf (matmul d none (truncf .bf16 x ht) (truncf .bf16 w ht) (constant ⟨2, ![a, b]⟩ .f32 0x00000000#32))
        (broadcastTo ⟨2, ![a, b]⟩ (shapeCast ⟨2, ![1, b]⟩ bias hc) hb)
      = affine x w bias := by
  funext j
  obtain ⟨p, q, rfl⟩ : ∃ (p : Fin a) (q : Fin b), j = ix2 p q := ⟨j 0, j 1, eq_ix2 j⟩
  rw [addf_apply, Cert.ChannelRows.channel_over_rows_apply]
  unfold affine
  rw [matProd_ix2, chan_ix2]
  rw [show matmul d none (truncf .bf16 x ht) (truncf .bf16 w ht) (constant ⟨2, ![a, b]⟩ .f32 0x00000000#32) (ix2 p q)
        = ∑ k : Fin n, x (ix2 p k) * w (ix2 k q) from
      RowsTimes.matmul_zero_apply d h1 h2 h3 h4 h5 h6 hr hs none (truncf .bf16 x ht) (truncf .bf16 w ht) p q]

/-! ## The body's payload -/

/-- What the body stores: the head of its eight loaded blocks (the counts are loaded first, then the sums). -/
theorem payload_eq (cnt : FVec Ideal S2048x1 .f32) (sums : FVec Ideal S2048x64 .f32) (w1 : FVec Ideal S64x32 .f32)
    (b1 : FVec Ideal S32 .f32) (w2 : FVec Ideal S32x16 .f32) (b2 : FVec Ideal S16 .f32) (w3 : FVec Ideal S16x1 .f32)
    (b3 : FVec Ideal S1 .f32) :
    k6_pay1 (F := Ideal) cnt sums w1 b1 w2 b2 w3 b3 = head sums cnt w1 b1 w2 b2 w3 b3 := by
  unfold k6_pay1 head
  dsimp only
  rw [shapeCast_self, shapeCast_self]
  rw [meanLayer_eq sums cnt,
    reluLayer_eq dot_S2048x64_S64x32_S2048x32_1_0_0_1_n_n rfl rfl rfl rfl rfl rfl rfl rfl,
    reluLayer_eq dot_S2048x32_S32x16_S2048x16_1_0_0_1_n_n rfl rfl rfl rfl rfl rfl rfl rfl,
    affineLayer_eq dot_S2048x16_S16x1_S2048x1_1_0_0_1_n_n rfl rfl rfl rfl rfl rfl rfl rfl]

/-! ## From the one point's blocks to the arrays -/

theorem zeros2 : (![0, 0] : Fin 2 → Nat) = fun _ => 0 := funext fun a => by fin_cases a <;> rfl
theorem zeros1 : (![0] : Fin 1 → Nat) = fun _ => 0 := funext fun a => by fin_cases a <;> rfl

/-! Each window's block index at the one point is zero on every axis, so the block's offsets in its array are zero. -/
theorem off0 : (fun a => win6_0.index t6_0 a * main_v101.ty.shape.size a) = fun _ => 0 :=
  funext fun a => by fin_cases a <;> decide +kernel
theorem off1 : (fun a => win6_1.index t6_0 a * main_v106.ty.shape.size a) = fun _ => 0 :=
  funext fun a => by fin_cases a <;> decide +kernel
theorem off2 : (fun a => win6_2.index t6_0 a * main_arg6.ty.shape.size a) = fun _ => 0 :=
  funext fun a => by fin_cases a <;> decide +kernel
theorem off3 : (fun a => win6_3.index t6_0 a * main_arg7.ty.shape.size a) = fun _ => 0 :=
  funext fun a => by fin_cases a <;> decide +kernel
theorem off4 : (fun a => win6_4.index t6_0 a * main_arg8.ty.shape.size a) = fun _ => 0 :=
  funext fun a => by fin_cases a <;> decide +kernel
theorem off5 : (fun a => win6_5.index t6_0 a * main_arg9.ty.shape.size a) = fun _ => 0 :=
  funext fun a => by fin_cases a <;> decide +kernel
theorem off6 : (fun a => win6_6.index t6_0 a * main_arg10.ty.shape.size a) = fun _ => 0 :=
  funext fun a => by fin_cases a <;> decide +kernel
theorem off7 : (fun a => win6_7.index t6_0 a * main_arg11.ty.shape.size a) = fun _ => 0 :=
  funext fun a => by fin_cases a <;> decide +kernel
theorem off8 : (fun a => win6_8.index t6_0 a * main_v107.ty.shape.size a) = fun _ => 0 :=
  funext fun a => by fin_cases a <;> decide +kernel

section Blocks

variable (V : (c : Dev nD) → (b : Ref sig .tc) → Buf (Elt Ideal) ((c : Thread nD τ).loc b)) (c : Dev nD)

/-! Each input window's block at the one point IS its array: a whole-array rectangle at zero offsets reads the array. -/
theorem iblk0 : iblk6 V c 0 t6_0 = V c main_v101 :=
  Memref.read_access_unit_zero (Elt Ideal) main_v101 off0 (fun a => by rw [congrFun off0 a]; simp) (V c main_v101)
theorem iblk1 : iblk6 V c 1 t6_0 = V c main_v106 :=
  Memref.read_access_unit_zero (Elt Ideal) main_v106 off1 (fun a => by rw [congrFun off1 a]; simp) (V c main_v106)
theorem iblk2 : iblk6 V c 2 t6_0 = V c main_arg6 :=
  Memref.read_access_unit_zero (Elt Ideal) main_arg6 off2 (fun a => by rw [congrFun off2 a]; simp) (V c main_arg6)
theorem iblk3 : iblk6 V c 3 t6_0 = V c main_arg7 :=
  Memref.read_access_unit_zero (Elt Ideal) main_arg7 off3 (fun a => by rw [congrFun off3 a]; simp) (V c main_arg7)
theorem iblk4 : iblk6 V c 4 t6_0 = V c main_arg8 :=
  Memref.read_access_unit_zero (Elt Ideal) main_arg8 off4 (fun a => by rw [congrFun off4 a]; simp) (V c main_arg8)
theorem iblk5 : iblk6 V c 5 t6_0 = V c main_arg9 :=
  Memref.read_access_unit_zero (Elt Ideal) main_arg9 off5 (fun a => by rw [congrFun off5 a]; simp) (V c main_arg9)
theorem iblk6' : iblk6 V c 6 t6_0 = V c main_arg10 :=
  Memref.read_access_unit_zero (Elt Ideal) main_arg10 off6 (fun a => by rw [congrFun off6 a]; simp) (V c main_arg10)
theorem iblk7 : iblk6 V c 7 t6_0 = V c main_arg11 :=
  Memref.read_access_unit_zero (Elt Ideal) main_arg11 off7 (fun a => by rw [congrFun off7 a]; simp) (V c main_arg11)

/-- The head of the eight arrays as the launch finds them. -/
abbrev headOf : Mat 2048 1 :=
  head (V c main_v101) (V c main_v106) (V c main_arg6) (V c main_arg7) (V c main_arg8) (V c main_arg9)
    (V c main_arg10) (V c main_arg11)

/-- What the body leaves in the output's staging buffer at the one point: the head of the arrays. -/
theorem after_eq : (dat6 (F := Ideal) V c).after 8 t6_0 = headOf V c := by
  rw [after6_8]
  unfold out6_8
  rw [View.canon_unit_zero zeros2]
  simp only [View.ld_unit_zero (S := S2048x1) zeros2, View.ld_unit_zero (S := S2048x64) zeros2,
    View.ld_unit_zero (S := S64x32) zeros2, View.ld_unit_zero (S := S32) zeros1, View.ld_unit_zero (S := S32x16) zeros2,
    View.ld_unit_zero (S := S16) zeros1, View.ld_unit_zero (S := S16x1) zeros2, View.ld_unit_zero (S := S1) zeros1]
  rw [iblk0 V c, iblk1 V c, iblk2 V c, iblk3 V c, iblk4 V c, iblk5 V c, iblk6' V c, iblk7 V c]
  exact payload_eq _ _ _ _ _ _ _ _

/-- What the one point writes back is the head of the arrays, read through the output's (whole) block. -/
theorem flushed_eq (t : Fin cfg6.N) :
    (dat6 (F := Ideal) V c).flushed 8 t = ((cfg6.win 8).blk t).view.read (Elt Ideal) (headOf V c) := by
  obtain rfl := fin_N6 t
  show (cfg6.win 8).cut (grid6.coords t6_0) ((dat6 V c).after 8 t6_0) = _
  rw [after_eq]
  exact (Memref.read_access_unit_zero (Elt Ideal) main_v107 off8 (fun a => by rw [congrFun off8 a]; simp)
    (headOf V c)).symm

/-- The output array after the launch: the head of the input arrays as the launch found them. -/
theorem arr_eq : (dat6 (F := Ideal) V c).arrAt 8 cfg6.N = headOf V c :=
  (dat6 V c).arrAt_eq_of_cover 8 (headOf V c) (fun t _ => flushed_eq V c t) fun i =>
    ⟨t6_0, flush6_8 t6_0, by
      show i ∈ ((View.whole main_v107).slice (win6_8.rect t6_0)).set
      rw [View.set_slice_whole, Rect.mem_set_unit]
      intro a
      have h0 : (i 0 : Nat) < 2048 := (i 0).isLt
      have h1 : (i 1 : Nat) < 1 := (i 1).isLt
      match a with
      | ⟨0, _⟩ =>
        show win6_8.index t6_0 0 * win6_8.size 0 ≤ (i 0 : Nat)
          ∧ (i 0 : Nat) < win6_8.index t6_0 0 * win6_8.size 0 + win6_8.xsize (grid6.coords t6_0) 0
        rw [show win6_8.index t6_0 0 * win6_8.size 0 = 0 from by decide +kernel,
          show win6_8.xsize (grid6.coords t6_0) 0 = 2048 from by decide +kernel]
        omega
      | ⟨1, _⟩ =>
        show win6_8.index t6_0 1 * win6_8.size 1 ≤ (i 1 : Nat)
          ∧ (i 1 : Nat) < win6_8.index t6_0 1 * win6_8.size 1 + win6_8.xsize (grid6.coords t6_0) 1
        rw [show win6_8.index t6_0 1 * win6_8.size 1 = 0 from by decide +kernel,
          show win6_8.xsize (grid6.coords t6_0) 1 = 1 from by decide +kernel]
        omega⟩

end Blocks

end Head

/-- THE SIXTH LAUNCH'S OUTPUT: the read-out head of the pooled sums, the counts and the three layers' weights and
    biases as the launch finds them. -/
theorem head6 (m : (ℓ : Loc nD τ sig) → Buf (Elt Ideal) ℓ) (ρ : Dev nD → PrngReg) (c : Dev nD) :
    W16 (F := Ideal) m ρ c (Proc.devRef .tc main_v107)
      = head (W15 m ρ c (Proc.devRef .tc main_v101)) (W15 m ρ c (Proc.devRef .tc main_v106))
          (W15 m ρ c (Proc.devRef .tc main_arg6)) (W15 m ρ c (Proc.devRef .tc main_arg7))
          (W15 m ρ c (Proc.devRef .tc main_arg8)) (W15 m ρ c (Proc.devRef .tc main_arg9))
          (W15 m ρ c (Proc.devRef .tc main_arg10)) (W15 m ρ c (Proc.devRef .tc main_arg11)) :=
  (W16_arr m ρ c 8).trans (Head.arr_eq (V15 m ρ) c)

end Cert.KernelIdeal.RegionValue

end
-- ==== Proof.RefStages.lean ====
/-
  The dense stages of the reference program, read as the functions of the specification.

  Between its gathers and scatters the reference applies four kinds of dense stage to node-feature matrices:
  a product with a weight matrix, a bias followed by rectification, the same with a residual term added, and
  the read-out head (a per-graph mean, two rectified affine layers and a last affine layer).  Each theorem below
  says that one such stage of the reference, as a function of the program's arguments, IS the corresponding
  function of the specification applied to the stages before it.

  Every proof has the same three steps.  The stage is read at an index (r, c) through the index-by-index
  equations of the operations it is made of; the composed index maps of the layout operations (a bias vector
  stood up as a row and repeated down the rows, a count vector stood up as a column and repeated along the
  channels, the row and column indices of a contraction) are identified, coordinate by coordinate, with the
  specification's "row r at k", "k at column c", "channel c" and "row r"; and over the extended reals the float
  operations are the sum, the maximum and the quotient themselves.  The float words for zero and one are never
  evaluated: the same word stands on both sides.
-/
import proofs.«124983_j78881369358664_1_alg».proof.Proof.RefRead
import proofs.«124983_j78881369358664_1_alg».proof.Proof.Spec

noncomputable section

namespace Cert.ReferenceIdeal.Stages

open Cert.ReferenceIdeal Cert.ReferenceIdeal.Read Cert.GraphNet Idealize.ShloMosaic Idealize.ShloMosaic.TcCoe

variable (x0 : (⟨S100000, .i32⟩ : BufTy).Contents (Elt Ideal))
  (x1 : (⟨S2x3200000, .i32⟩ : BufTy).Contents (Elt Ideal))
  (x2 : (⟨S100000, .i32⟩ : BufTy).Contents (Elt Ideal))
  (x3 : (⟨S92x64, .f32⟩ : BufTy).Contents (Elt Ideal))
  (x4 : (⟨S3x64x64, .f32⟩ : BufTy).Contents (Elt Ideal))
  (x5 : (⟨S3x64, .f32⟩ : BufTy).Contents (Elt Ideal))
  (x6 : (⟨S64x32, .f32⟩ : BufTy).Contents (Elt Ideal))
  (x7 : (⟨S32, .f32⟩ : BufTy).Contents (Elt Ideal))
  (x8 : (⟨S32x16, .f32⟩ : BufTy).Contents (Elt Ideal))
  (x9 : (⟨S16, .f32⟩ : BufTy).Contents (Elt Ideal))
  (x10 : (⟨S16x1, .f32⟩ : BufTy).Contents (Elt Ideal))
  (x11 : (⟨S1, .f32⟩ : BufTy).Contents (Elt Ideal))

/-! ## The first layer: features times weights, then bias and rectification -/

/-- The first product: entry (r, c) is the sum over k of h(r, k) * w(k, c). -/
theorem v44_eq : val_main_v44 (F := Ideal) x0 x3 x4
    = matProd (val_main_v41 (F := Ideal) x0 x3) (val_main_v43 (F := Ideal) x4) := by
  refine funext fun (i : S100000x64.Idx) => ?_
  rw [val_main_v44_apply]
  have hl : ∀ k : Fin 64, lidx_main_v44 i k = rowAt i k := fun k =>
    funext fun a => Fin.ext (by match a with | ⟨0, _⟩ => rfl | ⟨1, _⟩ => rfl)
  have hr : ∀ k : Fin 64, ridx_main_v44 i k = colAt i k := fun k =>
    funext fun a => Fin.ext (by match a with | ⟨0, _⟩ => rfl | ⟨1, _⟩ => rfl)
  simp only [hl, hr]
  rfl

/-- The first layer's output: max (agg(r, c) + bias(c)) 0; the bias row repeated down the rows is read at the
    channel of the index. -/
theorem v63_eq : val_main_v63 (F := Ideal) x0 x1 x3 x4 x5
    = biasRelu (val_main_v57 (F := Ideal) x0 x1 x3 x4) (val_main_v59 (F := Ideal) x5) := by
  refine funext fun (i : S100000x64.Idx) => ?_
  rw [val_main_v63_apply, val_main_v62_apply, val_main_call1_v0_apply, val_main_call1_cst_apply,
    val_main_v61_apply, val_main_v60_apply]
  have hc : idx_main_v60 (idx_main_v61 i) = chan i :=
    funext fun a => Fin.ext (by match a with | ⟨0, _⟩ => rfl)
  rw [hc]
  simp only [Ideal.maximumf_def, Ideal.addf_def, Ideal.ofBits_def]
  rfl

/-! ## The second and third layers: a product, then bias, rectification and the residual term -/

/-- The second product. -/
theorem v66_eq : val_main_v66 (F := Ideal) x0 x1 x3 x4 x5
    = matProd (val_main_v63 (F := Ideal) x0 x1 x3 x4 x5) (val_main_v65 (F := Ideal) x4) := by
  refine funext fun (i : S100000x64.Idx) => ?_
  rw [val_main_v66_apply]
  have hl : ∀ k : Fin 64, lidx_main_v66 i k = rowAt i k := fun k =>
    funext fun a => Fin.ext (by match a with | ⟨0, _⟩ => rfl | ⟨1, _⟩ => rfl)
  have hr : ∀ k : Fin 64, ridx_main_v66 i k = colAt i k := fun k =>
    funext fun a => Fin.ext (by match a with | ⟨0, _⟩ => rfl | ⟨1, _⟩ => rfl)
  simp only [hl, hr]
  rfl

/-- The second layer's output: prev(r, c) + max (agg(r, c) + bias(c)) 0. -/
theorem v86_eq : val_main_v86 (F := Ideal) x0 x1 x3 x4 x5
    = residual (val_main_v63 (F := Ideal) x0 x1 x3 x4 x5) (val_main_v79 (F := Ideal) x0 x1 x3 x4 x5)
        (val_main_v81 (F := Ideal) x5) := by
  refine funext fun (i : S100000x64.Idx) => ?_
  rw [val_main_v86_apply, val_main_v85_apply, val_main_v84_apply, val_main_call2_v0_apply,
    val_main_call2_cst_apply, val_main_v83_apply, val_main_v82_apply]
  have hc : idx_main_v82 (idx_main_v83 i) = chan i :=
    funext fun a => Fin.ext (by match a with | ⟨0, _⟩ => rfl)
  rw [hc]
  simp only [Ideal.maximumf_def, Ideal.addf_def, Ideal.ofBits_def]
  rfl

/-- The third product. -/
theorem v89_eq : val_main_v89 (F := Ideal) x0 x1 x3 x4 x5
    = matProd (val_main_v86 (F := Ideal) x0 x1 x3 x4 x5) (val_main_v88 (F := Ideal) x4) := by
  refine funext fun (i : S100000x64.Idx) => ?_
  rw [val_main_v89_apply]
  have hl : ∀ k : Fin 64, lidx_main_v89 i k = rowAt i k := fun k =>
    funext fun a => Fin.ext (by match a with | ⟨0, _⟩ => rfl | ⟨1, _⟩ => rfl)
  have hr : ∀ k : Fin 64, ridx_main_v89 i k = colAt i k := fun k =>
    funext fun a => Fin.ext (by match a with | ⟨0, _⟩ => rfl | ⟨1, _⟩ => rfl)
  simp only [hl, hr]
  rfl

/-- The third layer's output, again with the residual term. -/
theorem v109_eq : val_main_v109 (F := Ideal) x0 x1 x3 x4 x5
    = residual (val_main_v86 (F := Ideal) x0 x1 x3 x4 x5) (val_main_v102 (F := Ideal) x0 x1 x3 x4 x5)
        (val_main_v104 (F := Ideal) x5) := by
  refine funext fun (i : S100000x64.Idx) => ?_
  rw [val_main_v109_apply, val_main_v108_apply, val_main_v107_apply, val_main_call3_v0_apply,
    val_main_call3_cst_apply, val_main_v106_apply, val_main_v105_apply]
  have hc : idx_main_v105 (idx_main_v106 i) = chan i :=
    funext fun a => Fin.ext (by match a with | ⟨0, _⟩ => rfl)
  rw [hc]
  simp only [Ideal.maximumf_def, Ideal.addf_def, Ideal.ofBits_def]
  rfl

/-! ## The read-out head, one layer at a time -/

/-- The per-graph mean: sums(g, c) / max (count(g)) 1.  The count vector, stood up as a column and repeated
    along the channels, is read at the row of the index. -/
theorem v121_eq : val_main_v121 (F := Ideal) x0 x1 x2 x3 x4 x5
    = meanPool (val_main_v112 (F := Ideal) x0 x1 x2 x3 x4 x5) (column (val_main_v116 (F := Ideal) x2)) := by
  refine funext fun (i : S2048x64.Idx) => ?_
  rw [val_main_v121_apply, val_main_v120_apply, val_main_v119_apply, val_main_v118_apply,
    val_main_v117_apply, val_main_cst_22_apply]
  have hc : column (val_main_v116 (F := Ideal) x2) (rowOf i)
      = val_main_v116 (F := Ideal) x2 (idx_main_v119 (idx_main_v120 i)) := by
    unfold column
    exact congrArg _ (funext fun a => Fin.ext (by match a with | ⟨0, _⟩ => rfl))
  unfold meanPool
  rw [hc]
  simp only [Ideal.hostDivf_def, Ideal.maximumf_def, Ideal.ofBits_def]

/-- The first rectified affine layer of the head. -/
theorem v126_eq : val_main_v126 (F := Ideal) x0 x1 x2 x3 x4 x5 x6 x7
    = biasRelu (matProd (val_main_v121 (F := Ideal) x0 x1 x2 x3 x4 x5) x6) x7 := by
  refine funext fun (i : S2048x32.Idx) => ?_
  rw [val_main_v126_apply, val_main_v125_apply, val_main_call4_v0_apply, val_main_call4_cst_apply,
    val_main_v124_apply, val_main_v123_apply, val_main_v122_apply]
  have hl : ∀ k : Fin 64, lidx_main_v122 i k = rowAt i k := fun k =>
    funext fun a => Fin.ext (by match a with | ⟨0, _⟩ => rfl | ⟨1, _⟩ => rfl)
  have hr : ∀ k : Fin 64, ridx_main_v122 i k = colAt i k := fun k =>
    funext fun a => Fin.ext (by match a with | ⟨0, _⟩ => rfl | ⟨1, _⟩ => rfl)
  have hc : idx_main_v123 (idx_main_v124 i) = chan i :=
    funext fun a => Fin.ext (by match a with | ⟨0, _⟩ => rfl)
  rw [hc]
  simp only [hl, hr, Ideal.maximumf_def, Ideal.addf_def, Ideal.ofBits_def]
  rfl

/-- The second rectified affine layer of the head. -/
theorem v131_eq : val_main_v131 (F := Ideal) x0 x1 x2 x3 x4 x5 x6 x7 x8 x9
    = biasRelu (matProd (val_main_v126 (F := Ideal) x0 x1 x2 x3 x4 x5 x6 x7) x8) x9 := by
  refine funext fun (i : S2048x16.Idx) => ?_
  rw [val_main_v131_apply, val_main_v130_apply, val_main_call5_v0_apply, val_main_call5_cst_apply,
    val_main_v129_apply, val_main_v128_apply, val_main_v127_apply]
  have hl : ∀ k : Fin 32, lidx_main_v127 i k = rowAt i k := fun k =>
    funext fun a => Fin.ext (by match a with | ⟨0, _⟩ => rfl | ⟨1, _⟩ => rfl)
  have hr : ∀ k : Fin 32, ridx_main_v127 i k = colAt i k := fun k =>
    funext fun a => Fin.ext (by match a with | ⟨0, _⟩ => rfl | ⟨1, _⟩ => rfl)
  have hc : idx_main_v128 (idx_main_v129 i) = chan i :=
    funext fun a => Fin.ext (by match a with | ⟨0, _⟩ => rfl)
  rw [hc]
  simp only [hl, hr, Ideal.maximumf_def, Ideal.addf_def, Ideal.ofBits_def]
  rfl

/-- The last affine layer of the head.  Its output has one column, so the only channel is channel 0, which is
    where the one-entry bias is read. -/
theorem v135_affine : val_main_v135 (F := Ideal) x0 x1 x2 x3 x4 x5 x6 x7 x8 x9 x10 x11
    = affine (val_main_v131 (F := Ideal) x0 x1 x2 x3 x4 x5 x6 x7 x8 x9) x10 x11 := by
  refine funext fun (i : S2048x1.Idx) => ?_
  rw [val_main_v135_apply, val_main_v134_apply, val_main_v133_apply, val_main_v132_apply]
  have hl : ∀ k : Fin 16, lidx_main_v132 i k = rowAt i k := fun k =>
    funext fun a => Fin.ext (by match a with | ⟨0, _⟩ => rfl | ⟨1, _⟩ => rfl)
  have hr : ∀ k : Fin 16, ridx_main_v132 i k = colAt i k := fun k =>
    funext fun a => Fin.ext (by match a with | ⟨0, _⟩ => rfl | ⟨1, _⟩ => rfl)
  have hc : idx_main_v133 (idx_main_v134 i) = chan i :=
    funext fun a => Fin.ext (by
      match a with
      | ⟨0, _⟩ =>
        have h : (i 1).val < 1 := (i 1).isLt
        show 0 = (i 1).val
        omega)
  rw [hc]
  simp only [hl, hr, Ideal.addf_def]
  rfl

/-- The whole head: the four layers composed. -/
theorem v135_eq : val_main_v135 (F := Ideal) x0 x1 x2 x3 x4 x5 x6 x7 x8 x9 x10 x11
    = head (val_main_v112 (F := Ideal) x0 x1 x2 x3 x4 x5) (column (val_main_v116 (F := Ideal) x2))
        x6 x7 x8 x9 x10 x11 := by
  rw [v135_affine, v131_eq, v126_eq, v121_eq]
  rfl

end Cert.ReferenceIdeal.Stages

end
-- ==== Proof.Chain.lean ====
/-
  The kernel program's result, stage by stage, is the reference's.

  Both programs compute the same graph network.  The graph glue — self loops, degrees, the normalised edge
  weights, the gather of source rows, the scatter-add into target rows, the per-graph sums and counts — is the
  SAME list of host operations in both; the kernel program replaces three kinds of dense stage by launches:
  the matrix product with a layer's weight, bias-then-rectify (with the residual term from the second layer on),
  and the read-out head.  Walking the kernel program's segment boundaries in order, each live buffer is shown to
  hold the reference's stage value of the launch arguments: a host stretch applies the reference's own operations
  to buffers that already hold the reference's stages; a launch's array is the dense stage as one whole-array
  function (the region lemmas), which is what the reference's stage is (the stage lemmas).  The last boundary's
  result buffer is then the reference's result.
-/
import proofs.«124983_j78881369358664_1_alg».proof.Proof.ChainGlue
import proofs.«124983_j78881369358664_1_alg».proof.Proof.Spec
import proofs.«124983_j78881369358664_1_alg».proof.Proof.RegionLinear
import proofs.«124983_j78881369358664_1_alg».proof.Proof.RegionCombine
import proofs.«124983_j78881369358664_1_alg».proof.Proof.RegionHead
import proofs.«124983_j78881369358664_1_alg».proof.Proof.RefStages
import proofs.«124983_j78881369358664_1_alg».proof.Proof.LibKeepdimsSum
import Idealize.ShloMosaic.Lib.StableHlo.Run
import Idealize.ShloMosaic.Lib.ValueIdx

set_option maxRecDepth 16384

noncomputable section

namespace Cert.Chain

open Cert.KernelIdeal Cert.KernelIdeal.Gen Cert.KernelIdeal.RegionValue
open Cert.ReferenceIdeal.Read Cert.ReferenceIdeal.Stages
open Cert.GraphNet
open Idealize.ShloMosaic Idealize.ShloMosaic.TcCoe Idealize.SL.Sem Idealize.ShloMosaic.StableHlo

set_option quotPrecheck false

variable (m : (ℓ : Loc nD τ sig) → Buf (Elt Ideal) ℓ) (ρ : Dev nD → PrngReg) (c : Dev nD)

-- the launch arguments, as the reference's stages take them
local notation "x0" => m ((c.tc : Thread nD τ).loc main_arg0)
local notation "x1" => m ((c.tc : Thread nD τ).loc main_arg1)
local notation "x2" => m ((c.tc : Thread nD τ).loc main_arg2)
local notation "x3" => m ((c.tc : Thread nD τ).loc main_arg3)
local notation "x4" => m ((c.tc : Thread nD τ).loc main_arg4)
local notation "x5" => m ((c.tc : Thread nD τ).loc main_arg5)
local notation "x6" => m ((c.tc : Thread nD τ).loc main_arg6)
local notation "x7" => m ((c.tc : Thread nD τ).loc main_arg7)
local notation "x8" => m ((c.tc : Thread nD τ).loc main_arg8)
local notation "x9" => m ((c.tc : Thread nD τ).loc main_arg9)
local notation "x10" => m ((c.tc : Thread nD τ).loc main_arg10)
local notation "x11" => m ((c.tc : Thread nD τ).loc main_arg11)

/-! ## The three layers

In each layer: a launch forms the product of the node features with the layer's weight; a host stretch gathers the
product's source rows, scales them by the edge weights and scatter-adds them into the target rows, and slices the
layer's bias; a launch adds the bias and rectifies (adding the previous features from the second layer on); a short
host stretch slices the next layer's weight. -/

/-- Layer 1's product: the embedding rows times the first weight. -/
theorem W4_v44 : W4 m ρ c (Proc.devRef .tc main_v44) = val_main_v44 x0 x3 x4 := by
  rw [linear0 m ρ c, W3_v41 m ρ c, W3_v43 m ρ c]
  exact (v44_eq _ _ _).symm

set_option maxHeartbeats 4000000 in
/-- Layer 1's aggregate: the reference's gather, scale and scatter-add, of the same product and the same edges. -/
theorem W5_v57 : W5 m ρ c (Proc.devRef .tc main_v57) = val_main_v57 x0 x1 x3 x4 := by
  show StableHlo.after hostOps1 (W4 m ρ c) _ = _
  after_results
  rw [W4_v44 m ρ c, live4 m ρ c main_v3 (by decide : main_v3 ∈ liveRefs), live4 m ρ c main_v6 (by decide : main_v6 ∈ liveRefs), live4 m ρ c main_v34 (by decide : main_v34 ∈ liveRefs),
    W3_v3 m ρ c, W3_v6 m ρ c, W3_v34 m ρ c]
  rfl

set_option maxHeartbeats 4000000 in
/-- Layer 1's bias row. -/
theorem W5_v59 : W5 m ρ c (Proc.devRef .tc main_v59) = val_main_v59 x5 := by
  show StableHlo.after hostOps1 (W4 m ρ c) _ = _
  after_results
  rw [live4 m ρ c main_arg5 (by decide : main_arg5 ∈ liveRefs), W3_arg m ρ c main_arg5 (by decide)]
  rfl

/-- The features after layer 1: the rectified biased aggregate. -/
theorem W6_v60 : W6 m ρ c (Proc.devRef .tc main_v60) = val_main_v63 x0 x1 x3 x4 x5 := by
  rw [combine1 m ρ c, W5_v57 m ρ c, W5_v59 m ρ c]
  exact (v63_eq _ _ _ _ _).symm

set_option maxHeartbeats 4000000 in
/-- The short stretch before layer 2's product keeps the features … -/
theorem W7_v60 : W7 m ρ c (Proc.devRef .tc main_v60) = val_main_v63 x0 x1 x3 x4 x5 := by
  refine Eq.trans ?_ (W6_v60 m ρ c)
  show StableHlo.after hostOps2 (W6 m ρ c) _ = _
  after_results

set_option maxHeartbeats 4000000 in
/-- … and slices layer 2's weight. -/
theorem W7_v62 : W7 m ρ c (Proc.devRef .tc main_v62) = val_main_v65 x4 := by
  show StableHlo.after hostOps2 (W6 m ρ c) _ = _
  after_results
  rw [live6 m ρ c main_arg4 (by decide : main_arg4 ∈ liveRefs), W3_arg m ρ c main_arg4 (by decide)]
  rfl

/-- Layer 2's product. -/
theorem W8_v63 : W8 m ρ c (Proc.devRef .tc main_v63) = val_main_v66 x0 x1 x3 x4 x5 := by
  rw [linear2 m ρ c, W7_v60 m ρ c, W7_v62 m ρ c]
  exact (v66_eq _ _ _ _ _).symm

/-- The product's launch only reads the features: they are its first input array. -/
theorem W8_v60 : W8 m ρ c (Proc.devRef .tc main_v60) = val_main_v63 x0 x1 x3 x4 x5 :=
  ((W8_arr m ρ c 0).trans (((dat2 (V7 m ρ) c).arrAt_in 0 rfl _).trans (A_eq2 (V7 m ρ) c 0))).trans (W7_v60 m ρ c)

set_option maxHeartbeats 4000000 in
/-- Layer 2's aggregate. -/
theorem W9_v76 : W9 m ρ c (Proc.devRef .tc main_v76) = val_main_v79 x0 x1 x3 x4 x5 := by
  show StableHlo.after hostOps3 (W8 m ρ c) _ = _
  after_results
  rw [W8_v63 m ρ c, live8 m ρ c main_v3 (by decide : main_v3 ∈ liveRefs), live8 m ρ c main_v6 (by decide : main_v6 ∈ liveRefs), live8 m ρ c main_v34 (by decide : main_v34 ∈ liveRefs),
    W3_v3 m ρ c, W3_v6 m ρ c, W3_v34 m ρ c]
  rfl

set_option maxHeartbeats 4000000 in
/-- Layer 2's bias row. -/
theorem W9_v78 : W9 m ρ c (Proc.devRef .tc main_v78) = val_main_v81 x5 := by
  show StableHlo.after hostOps3 (W8 m ρ c) _ = _
  after_results
  rw [live8 m ρ c main_arg5 (by decide : main_arg5 ∈ liveRefs), W3_arg m ρ c main_arg5 (by decide)]
  rfl

set_option maxHeartbeats 4000000 in
/-- The aggregate's stretch keeps the features. -/
theorem W9_v60 : W9 m ρ c (Proc.devRef .tc main_v60) = val_main_v63 x0 x1 x3 x4 x5 := by
  refine Eq.trans ?_ (W8_v60 m ρ c)
  show StableHlo.after hostOps3 (W8 m ρ c) _ = _
  after_results

/-- The features after layer 2: the previous features plus the rectified biased aggregate. -/
theorem W10_v79 : W10 m ρ c (Proc.devRef .tc main_v79) = val_main_v86 x0 x1 x3 x4 x5 := by
  rw [combine3 m ρ c, W9_v60 m ρ c, W9_v76 m ρ c, W9_v78 m ρ c]
  exact (v86_eq _ _ _ _ _).symm

set_option maxHeartbeats 4000000 in
theorem W11_v79 : W11 m ρ c (Proc.devRef .tc main_v79) = val_main_v86 x0 x1 x3 x4 x5 := by
  refine Eq.trans ?_ (W10_v79 m ρ c)
  show StableHlo.after hostOps4 (W10 m ρ c) _ = _
  after_results

set_option maxHeartbeats 4000000 in
/-- Layer 3's weight. -/
theorem W11_v81 : W11 m ρ c (Proc.devRef .tc main_v81) = val_main_v88 x4 := by
  show StableHlo.after hostOps4 (W10 m ρ c) _ = _
  after_results
  rw [live10 m ρ c main_arg4 (by decide : main_arg4 ∈ liveRefs), W3_arg m ρ c main_arg4 (by decide)]
  rfl

/-- Layer 3's product. -/
theorem W12_v82 : W12 m ρ c (Proc.devRef .tc main_v82) = val_main_v89 x0 x1 x3 x4 x5 := by
  rw [linear4 m ρ c, W11_v79 m ρ c, W11_v81 m ρ c]
  exact (v89_eq _ _ _ _ _).symm

theorem W12_v79 : W12 m ρ c (Proc.devRef .tc main_v79) = val_main_v86 x0 x1 x3 x4 x5 :=
  ((W12_arr m ρ c 0).trans (((dat4 (V11 m ρ) c).arrAt_in 0 rfl _).trans (A_eq4 (V11 m ρ) c 0))).trans (W11_v79 m ρ c)

set_option maxHeartbeats 4000000 in
/-- Layer 3's aggregate. -/
theorem W13_v95 : W13 m ρ c (Proc.devRef .tc main_v95) = val_main_v102 x0 x1 x3 x4 x5 := by
  show StableHlo.after hostOps5 (W12 m ρ c) _ = _
  after_results
  rw [W12_v82 m ρ c, live12 m ρ c main_v3 (by decide : main_v3 ∈ liveRefs), live12 m ρ c main_v6 (by decide : main_v6 ∈ liveRefs), live12 m ρ c main_v34 (by decide : main_v34 ∈ liveRefs),
    W3_v3 m ρ c, W3_v6 m ρ c, W3_v34 m ρ c]
  rfl

set_option maxHeartbeats 4000000 in
/-- Layer 3's bias row. -/
theorem W13_v97 : W13 m ρ c (Proc.devRef .tc main_v97) = val_main_v104 x5 := by
  show StableHlo.after hostOps5 (W12 m ρ c) _ = _
  after_results
  rw [live12 m ρ c main_arg5 (by decide : main_arg5 ∈ liveRefs), W3_arg m ρ c main_arg5 (by decide)]
  rfl

set_option maxHeartbeats 4000000 in
theorem W13_v79 : W13 m ρ c (Proc.devRef .tc main_v79) = val_main_v86 x0 x1 x3 x4 x5 := by
  refine Eq.trans ?_ (W12_v79 m ρ c)
  show StableHlo.after hostOps5 (W12 m ρ c) _ = _
  after_results

/-- The features after layer 3. -/
theorem W14_v98 : W14 m ρ c (Proc.devRef .tc main_v98) = val_main_v109 x0 x1 x3 x4 x5 := by
  rw [combine5 m ρ c, W13_v79 m ρ c, W13_v95 m ρ c, W13_v97 m ρ c]
  exact (v109_eq _ _ _ _ _).symm

/-! ## The read-out

The last host stretch sums the node features per graph and counts each graph's nodes; the last launch is the head. -/

set_option maxHeartbeats 4000000 in
/-- The per-graph sums of the final features. -/
theorem W15_v101 : W15 m ρ c (Proc.devRef .tc main_v101) = val_main_v112 x0 x1 x2 x3 x4 x5 := by
  show StableHlo.after hostOps6 (W14 m ρ c) _ = _
  after_results
  rw [W14_v98 m ρ c, live14 m ρ c main_arg2 (by decide : main_arg2 ∈ liveRefs), W3_arg m ρ c main_arg2 (by decide)]
  rfl

/-- A vector stood up as a column, read at (p, 0): the vector's entry p. -/
theorem column_ix2 {a : Nat} (v : Vect a) (p : Fin a) (u : Fin 1) : column v (ValueIdx.ix2 p u) = v (ValueIdx.ix1 p) := by
  unfold column
  refine congrArg v (funext fun d => ?_)
  match d with
  | ⟨0, _⟩ => rfl

set_option maxHeartbeats 4000000 in
/-- The per-graph node counts, stood up as a column. -/
theorem W15_v106 : W15 m ρ c (Proc.devRef .tc main_v106) = column (val_main_v116 x2) := by
  show StableHlo.after hostOps6 (W14 m ρ c) _ = _
  after_results
  rw [live14 m ρ c main_arg2 (by decide : main_arg2 ∈ liveRefs), W3_arg m ρ c main_arg2 (by decide)]
  funext i
  obtain ⟨p, u, rfl⟩ : ∃ (p : Fin 2048) (u : Fin 1), i = ValueIdx.ix2 p u := ⟨i 0, i 1, ValueIdx.eq_ix2 i⟩
  rw [column_ix2]
  refine (Cert.KeepdimsSum.shapeCast_a_a1_apply _ _ p u).trans ?_
  rfl

/-- The head's launch: the reference's last stage. -/
theorem result : W16 m ρ c (Proc.devRef .tc main_v107)
    = val_main_v135 x0 x1 x2 x3 x4 x5 x6 x7 x8 x9 x10 x11 := by
  rw [head6 m ρ c, W15_v101 m ρ c, W15_v106 m ρ c,
    live15 m ρ c main_arg6 (by decide : main_arg6 ∈ liveRefs), live15 m ρ c main_arg7 (by decide : main_arg7 ∈ liveRefs), live15 m ρ c main_arg8 (by decide : main_arg8 ∈ liveRefs),
    live15 m ρ c main_arg9 (by decide : main_arg9 ∈ liveRefs), live15 m ρ c main_arg10 (by decide : main_arg10 ∈ liveRefs), live15 m ρ c main_arg11 (by decide : main_arg11 ∈ liveRefs),
    W3_arg m ρ c main_arg6 (by decide), W3_arg m ρ c main_arg7 (by decide), W3_arg m ρ c main_arg8 (by decide),
    W3_arg m ρ c main_arg9 (by decide), W3_arg m ρ c main_arg10 (by decide), W3_arg m ρ c main_arg11 (by decide)]
  exact (v135_eq _ _ _ _ _ _ _ _ _ _ _ _).symm

end Cert.Chain

end
-- ==== Proof.lean ====
/-
  The five claims of the certificate.

  The kernel program and the reference compute the same graph network: an embedding lookup, three layers of
  "multiply by the layer's weight, gather along the edges, scale, scatter-add, add the bias, rectify (plus the previous
  features from the second layer on)", per-graph mean pooling and a three-layer read-out head.  The graph glue is the
  same host operations in both programs; the kernel program runs the dense stages as seven kernel launches.

  * The three frames: the two kernel programs' by their frame certificates; the reference has no launch, and its
    frame is its run with the result dropped.
  * The idealization rewrote nothing, so there is nothing to preserve.
  * At the exact instance both programs end with equal results: the kernel program's run ends with the result buffer
    at what its last segment boundary holds; walking the boundaries, that array is the reference's last stage of the
    launch arguments (Chain.lean), which is the term the reference's run ends with; the two memories agree on the
    arguments.
-/
import proofs.«124983_j78881369358664_1_alg».proof.Defs
import proofs.«124983_j78881369358664_1_alg».proof.Proof.Gen.Kernel
import proofs.«124983_j78881369358664_1_alg».proof.Proof.Gen.Kernel.Skeleton
import proofs.«124983_j78881369358664_1_alg».proof.Proof.Gen.Kernel.Launch
import proofs.«124983_j78881369358664_1_alg».proof.Proof.Gen.Kernel.Points
import proofs.«124983_j78881369358664_1_alg».proof.Proof.Gen.Kernel.Frame
import proofs.«124983_j78881369358664_1_alg».proof.Proof.Gen.KernelIdeal
import proofs.«124983_j78881369358664_1_alg».proof.Proof.Gen.KernelIdeal.Skeleton
import proofs.«124983_j78881369358664_1_alg».proof.Proof.Gen.KernelIdeal.Launch
import proofs.«124983_j78881369358664_1_alg».proof.Proof.Gen.KernelIdeal.Points
import proofs.«124983_j78881369358664_1_alg».proof.Proof.Gen.KernelIdeal.Frame
import proofs.«124983_j78881369358664_1_alg».proof.Proof.Gen.ReferenceIdeal
import proofs.«124983_j78881369358664_1_alg».proof.Proof.RefRun
import proofs.«124983_j78881369358664_1_alg».proof.Proof.RefRead
import proofs.«124983_j78881369358664_1_alg».proof.Proof.Gen.Pre_finite_inputs
import proofs.«124983_j78881369358664_1_alg».proof.Proof.KernelRun
import proofs.«124983_j78881369358664_1_alg».proof.Proof.Chain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the array the kernel program's last boundary holds at its result buffer: the kernel
    program by its run; the reference because its run's term is its last stage of the arguments, the two memories
    agree on the arguments, and that stage is the boundary's array. -/
theorem algebraic : Cert.algebraic_KernelIdeal_ReferenceIdeal := by
  intro m ρ m' ρ' _ hagree
  refine ⟨fun c => Cert.KernelIdeal.Gen.W16 m ρ c (Proc.devRef .tc Cert.KernelIdeal.main_v107),
    Cert.KernelIdeal.RunValue.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v135_eq, h0, h1, h2, h3, h4, h5, h6, h7, h8, h9, h10, h11]
  exact (Cert.Chain.result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
